-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x1600000 : Shape := ⟨2, ![2, 1600000]⟩
abbrev S1600000 : Shape := ⟨1, ![1600000]⟩
abbrev S256x64 : Shape := ⟨2, ![256, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S64x40 .f32) (main_arg6 : FVec F S40 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x40 .f32 := Host.absf main_arg5
  let main_cst_6 : FVec F S_ .f32 := constant S_ .f32 0x7F800000#32
  let main_v20 : FVec F S64x40 .f32 := broadcastInDim S64x40 ![] bcast_S_S64x40 main_cst_6
  let main_v21 : IVec S64x40 1 := cmpf .olt main_v19 main_v20
  let main_c_7 : IVec S_ 1 := constantI S_ 1 1#1
  let main_v22 : IVec S_ 1 := (fun x v => Host.reduce IntOp.andi x v reducesTo_S64x40_S_d0_1 h_S_) main_v21 main_c_7
  let main_v23 : IVec S_ 1 := andi main_v18 main_v22
  let main_v24 : FVec F S40 .f32 := Host.absf main_arg6
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  main_v28

def fn {F : FTy → Type} [FloatOps F] (main_arg0 : FVec F S50000x256 .f32) (main_arg1 : IVec S2x1600000 32) (main_arg2 : FVec F S1600000 .f32) (main_arg3 : FVec F S256x64 .f32) (main_arg4 : FVec F S64 .f32) (main_arg5 : FVec F S64x40 .f32) (main_arg6 : FVec F S40 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S256x64 .f32 := Host.absf main_arg3
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S50000x256 : Shape := ⟨2, ![50000, 256]⟩
abbrev S2x1600000 : Shape := ⟨2, ![2, 1600000]⟩
abbrev S1600000 : Shape := ⟨1, ![1600000]⟩
abbrev S256x64 : Shape := ⟨2, ![256, 64]⟩
abbrev S64 : Shape := ⟨1, ![64]⟩
abbrev S64x40 : Shape := ⟨2, ![64, 40]⟩
abbrev S40 : Shape := ⟨1, ![40]⟩
abbrev S1x1600000 : Shape := ⟨2, ![1, 1600000]⟩
abbrev S50000 : Shape := ⟨1, ![50000]⟩
abbrev S1650000 : Shape := ⟨1, ![1650000]⟩
abbrev S_ : Shape := ⟨0, ![]⟩
abbrev S1650000x1 : Shape := ⟨2, ![1650000, 1]⟩
abbrev S50000x64 : Shape := ⟨2, ![50000, 64]⟩
abbrev S2000x256 : Shape := ⟨2, ![2000, 256]⟩
abbrev S2000x64 : Shape := ⟨2, ![2000, 64]⟩
abbrev S1650000x64 : Shape := ⟨2, ![1650000, 64]⟩
abbrev S1x64 : Shape := ⟨2, ![1, 64]⟩
abbrev S50000x40 : Shape := ⟨2, ![50000, 40]⟩
abbrev S2000x40 : Shape := ⟨2, ![2000, 40]⟩
abbrev S1650000x40 : Shape := ⟨2, ![1650000, 40]⟩
abbrev S1x40 : Shape := ⟨2, ![1, 40]⟩
abbrev S2000 : Shape := ⟨1, ![2000]⟩
abbrev S2000x1 : Shape := ⟨2, ![2000, 1]⟩

abbrev nBuf : Space → Nat
  | .hbm => 92
  | .vmem => 14
  | .smem => 0
  | _ => 0

abbrev bufTy : (tb : Table) → Fin (tcTables nBuf tb) → BufTy
  | .hbm, ⟨0, _⟩ => ⟨S50000x256, .f32⟩
  | .hbm, ⟨1, _⟩ => ⟨S2x1600000, .i32⟩
  | .hbm, ⟨2, _⟩ => ⟨S1600000, .f32⟩
  | .hbm, ⟨3, _⟩ => ⟨S256x64, .f32⟩
  | .hbm, ⟨4, _⟩ => ⟨S64, .f32⟩
  | .hbm, ⟨5, _⟩ => ⟨S64x40, .f32⟩
  | .hbm, ⟨6, _⟩ => ⟨S40, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S50000, .i32⟩
  | .hbm, ⟨12, _⟩ => ⟨S1650000, .i32⟩
  | .hbm, ⟨13, _⟩ => ⟨S1650000, .i32⟩
  | .hbm, ⟨14, _⟩ => ⟨S_, .f32⟩
  | .hbm, ⟨15, _⟩ => ⟨S50000, .f32⟩
  | .hbm, ⟨16, _⟩ => ⟨S1650000, .f32⟩
  | .hbm, ⟨17, _⟩ => ⟨S_, .f32⟩
  | .hbm, ⟨18, _⟩ => ⟨S50000, .f32⟩
  | .hbm, ⟨19, _⟩ => ⟨S1650000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S1650000, .i32⟩
  | .hbm, ⟨30, _⟩ => ⟨S1650000, .i1⟩
  | .hbm, ⟨31, _⟩ => ⟨S_, .i32⟩
  | .hbm, ⟨32, _⟩ => ⟨S1650000, .i32⟩
  | .hbm, ⟨33, _⟩ => ⟨S1650000, .i32⟩
  | .hbm, ⟨34, _⟩ => ⟨S1650000, .i32⟩
  | .hbm, ⟨35, _⟩ => ⟨S1650000x1, .i32⟩
  | .hbm, ⟨36, _⟩ => ⟨S1650000, .f32⟩
  | .hbm, ⟨37, _⟩ => ⟨S1650000, .f32⟩
  | .hbm, ⟨38, _⟩ => ⟨S_, .i32⟩
  | .hbm, ⟨39, _⟩ => ⟨S1650000, .i32⟩
  | .hbm, ⟨40, _⟩ => ⟨S1650000, .i1⟩
  | .hbm, ⟨41, _⟩ => ⟨S_, .i32⟩
  | .hbm, ⟨42, _⟩ => ⟨S1650000, .i32⟩
  | .hbm, ⟨43, _⟩ => ⟨S1650000, .i32⟩
  | .hbm, ⟨44, _⟩ => ⟨S1650000, .i32⟩
  | .hbm, ⟨45, _⟩ => ⟨S1650000x1, .i32⟩
  | .hbm, ⟨46, _⟩ => ⟨S1650000, .f32⟩
  | .hbm, ⟨47, _⟩ => ⟨S1650000, .f32⟩
  | .hbm, ⟨48, _⟩ => ⟨S50000x64, .f32⟩
  | .hbm, ⟨49, _⟩ => ⟨S_, .i32⟩
  | .hbm, ⟨50, _⟩ => ⟨S1650000, .i32⟩
  | .hbm, ⟨51, _⟩ => ⟨S1650000, .i1⟩
  | .hbm, ⟨52, _⟩ => ⟨S_, .i32⟩
  | .hbm, ⟨53, _⟩ => ⟨S1650000, .i32⟩
  | .hbm, ⟨54, _⟩ => ⟨S1650000, .i32⟩
  | .hbm, ⟨55, _⟩ => ⟨S1650000, .i32⟩
  | .hbm, ⟨56, _⟩ => ⟨S1650000x1, .i32⟩
  | .hbm, ⟨57, _⟩ => ⟨S1650000x64, .f32⟩
  | .hbm, ⟨58, _⟩ => ⟨S1650000x1, .f32⟩
  | .hbm, ⟨59, _⟩ => ⟨S1650000x64, .f32⟩
  | .hbm, ⟨60, _⟩ => ⟨S1650000x64, .f32⟩
  | .hbm, ⟨61, _⟩ => ⟨S_, .f32⟩
  | .hbm, ⟨62, _⟩ => ⟨S50000x64, .f32⟩
  | .hbm, ⟨63, _⟩ => ⟨S1650000x1, .i32⟩
  | .hbm, ⟨64, _⟩ => ⟨S50000x64, .f32⟩
  | .hbm, ⟨65, _⟩ => ⟨S1x64, .f32⟩
  | .hbm, ⟨66, _⟩ => ⟨S50000x64, .f32⟩
  | .hbm, ⟨67, _⟩ => ⟨S50000x64, .f32⟩
  | .hbm, ⟨68, _⟩ => ⟨S_, .f32⟩
  | .hbm, ⟨69, _⟩ => ⟨S50000x64, .f32⟩
  | .hbm, ⟨70, _⟩ => ⟨S50000x64, .f32⟩
  | .hbm, ⟨71, _⟩ => ⟨S50000x40, .f32⟩
  | .hbm, ⟨72, _⟩ => ⟨S_, .i32⟩
  | .hbm, ⟨73, _⟩ => ⟨S1650000, .i32⟩
  | .hbm, ⟨74, _⟩ => ⟨S1650000, .i1⟩
  | .hbm, ⟨75, _⟩ => ⟨S_, .i32⟩
  | .hbm, ⟨76, _⟩ => ⟨S1650000, .i32⟩
  | .hbm, ⟨77, _⟩ => ⟨S1650000, .i32⟩
  | .hbm, ⟨78, _⟩ => ⟨S1650000, .i32⟩
  | .hbm, ⟨79, _⟩ => ⟨S1650000x1, .i32⟩
  | .hbm, ⟨80, _⟩ => ⟨S1650000x40, .f32⟩
  | .hbm, ⟨81, _⟩ => ⟨S1650000x1, .f32⟩
  | .hbm, ⟨82, _⟩ => ⟨S1650000x40, .f32⟩
  | .hbm, ⟨83, _⟩ => ⟨S1650000x40, .f32⟩
  | .hbm, ⟨84, _⟩ => ⟨S_, .f32⟩
  | .hbm, ⟨85, _⟩ => ⟨S50000x40, .f32⟩
  | .hbm, ⟨86, _⟩ => ⟨S1650000x1, .i32⟩
  | .hbm, ⟨87, _⟩ => ⟨S50000x40, .f32⟩
  | .hbm, ⟨88, _⟩ => ⟨S1x40, .f32⟩
  | .hbm, ⟨89, _⟩ => ⟨S50000x40, .f32⟩
  | .hbm, ⟨90, _⟩ => ⟨S50000x40, .f32⟩
  | .hbm, ⟨91, _⟩ => ⟨S50000x40, .f32⟩
  | .local _ .vmem, ⟨0, _⟩ => ⟨S2000x256, .f32⟩
  | .local _ .vmem, ⟨1, _⟩ => ⟨S2000x256, .f32⟩
  | .local _ .vmem, ⟨2, _⟩ => ⟨S256x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S64x40, .f32⟩
  | .local _ .vmem, ⟨8, _⟩ => ⟨S2000x40, .f32⟩
  | .local _ .vmem, ⟨9, _⟩ => ⟨S2000x40, .f32⟩
  | .local _ .vmem, ⟨10, _⟩ => ⟨S2000x40, .f32⟩
  | .local _ .vmem, ⟨11, _⟩ => ⟨S2000x40, .f32⟩
  | .local _ .vmem, ⟨12, _⟩ => ⟨S2000x40, .f32⟩
  | .local _ .vmem, ⟨13, _⟩ => ⟨S2000x40, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_4 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_6 : Ref sig .tc := ⟨.hbm, 49, rfl⟩
abbrev main_v34 : Ref sig .tc := ⟨.hbm, 50, rfl⟩
abbrev main_v35 : Ref sig .tc := ⟨.hbm, 51, rfl⟩
abbrev main_c_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_call1_cst : Ref sig .tc := ⟨.hbm, 68, rfl⟩
abbrev main_call1_v0 : Ref sig .tc := ⟨.hbm, 69, rfl⟩
abbrev main_v50 : Ref sig .tc := ⟨.hbm, 70, rfl⟩
abbrev main_v51 : Ref sig .tc := ⟨.hbm, 71, rfl⟩
abbrev main_c_9 : Ref sig .tc := ⟨.hbm, 72, rfl⟩
abbrev main_v52 : Ref sig .tc := ⟨.hbm, 73, rfl⟩
abbrev main_v53 : Ref sig .tc := ⟨.hbm, 74, rfl⟩
abbrev main_c_10 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_11 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x40 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x40 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x40 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S50000 : S_.BroadcastsInDim S50000 (![] : Fin 0 → Fin S50000.rank)
  bcast_S1650000_S1650000x1_0 : S1650000.BroadcastsInDim S1650000x1 (![0] : Fin 1 → Fin S1650000x1.rank)
  bcast_S_S1650000 : S_.BroadcastsInDim S1650000 (![] : Fin 0 → Fin S1650000.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S2000x64_S2000x64_0_0 : ∀ a, (![0, 0] : Fin 2 → Nat) a + S2000x64.size a ≤ S2000x64.size a
  h_S2000x64 : 0 < S2000x64.numel
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  shapeCasts_S2000x64_S2000x64 : S2000x64.ShapeCasts S2000x64
  inb_S64x40_S64x40_0_0 : ∀ a, (![0, 0] : Fin 2 → Nat) a + S64x40.size a ≤ S64x40.size a
  h_S64x40 : 0 < S64x40.numel
  inb_S2000x40_S2000x40_0_0 : ∀ a, (![0, 0] : Fin 2 → Nat) a + S2000x40.size a ≤ S2000x40.size a
  h_S2000x40 : 0 < S2000x40.numel
  bcast_S1650000x1_S1650000x40_0_1 : S1650000x1.BroadcastsInDim S1650000x40 (![0, 1] : Fin 2 → Fin S1650000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  shapeCasts_S2000x40_S2000x40 : S2000x40.ShapeCasts S2000x40
  reduces_S2000x40_S2000 : S2000x40.Reduces [1] S2000
  shapeCasts_S2000_S2000x1 : S2000.ShapeCasts S2000x1
  broadcasts_S2000x1_S2000x40 : S2000x1.Broadcasts S2000x40
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S2000x256_S256x64_S2000x64_1_0_0_1_n_n_wf : DotDims.WF S2000x256 S256x64 S2000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  dot_S2000x64_S64x40_S2000x40_1_0_0_1_n_n_wf : DotDims.WF S2000x64 S64x40 S2000x40 [1] [0] [0] [1] [] []
  gather_S50000x40_S1650000x1_S1650000x40_1_0_n_n_0_1_140_wf : GatherDims.WF S50000x40 S1650000x1 S1650000x40 [1] [0] [] [0] [] 1 ![1, 40]
  scatter_S50000x40_S1650000x1_S1650000x40_1_0_0_1_wf : ScatterDims.WF S50000x40 S1650000x1 S1650000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S50000x64.size a
  hwx0_2 : ∀ i : grid0.Coords, EltTy.bits .f32 = 32 ∨ (Rect.block (s := S50000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x40.size a ≤ S64x40.size a
  hwx1_1 : ∀ i : grid1.Coords, EltTy.bits .f32 = 32 ∨ (Rect.block (s := S64x40) S64x40.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x40.size a ≤ S50000x40.size a
  hwx1_2 : ∀ i : grid1.Coords, EltTy.bits .f32 = 32 ∨ (Rect.block (s := S50000x40) S2000x40.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x40.size a ≤ S50000x40.size a
  hwx2_0 : ∀ i : grid2.Coords, EltTy.bits .f32 = 32 ∨ (Rect.block (s := S50000x40) S2000x40.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x40.size a ≤ S50000x40.size a
  hwx2_1 : ∀ i : grid2.Coords, EltTy.bits .f32 = 32 ∨ (Rect.block (s := S50000x40) S2000x40.size (cc2_transform_1 i) (hinb2_1 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf
def dot_S2000x64_S64x40_S2000x40_1_0_0_1_n_n : DotDims S2000x64 S64x40 S2000x40 where
  lhsContracting := [1]
  rhsContracting := [0]
  lhsNonContracting := [0]
  rhsNonContracting := [1]
  lhsBatch := []
  rhsBatch := []
  wf := dot_S2000x64_S64x40_S2000x40_1_0_0_1_n_n_wf
def gather_S50000x40_S1650000x1_S1650000x40_1_0_n_n_0_1_140 : GatherDims S50000x40 S1650000x1 S1650000x40 where
  offsetDims := [1]
  collapsedSliceDims := [0]
  operandBatchingDims := []
  startIndicesBatchingDims := []
  startIndexMap := [0]
  indexVectorDim := 1
  sliceSizes := ![1, 40]
  wf := gather_S50000x40_S1650000x1_S1650000x40_1_0_n_n_0_1_140_wf
def scatter_S50000x40_S1650000x1_S1650000x40_1_0_0_1 : ScatterDims S50000x40 S1650000x1 S1650000x40 where
  updateWindowDims := [1]
  insertedWindowDims := [0]
  scatterDimsToOperandDims := [0]
  indexVectorDim := 1
  wf := scatter_S50000x40_S1650000x1_S1650000x40_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v50) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x40.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v51) S2000x40.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v67) S2000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v68) S2000x40.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S50000x256 : Shape := ⟨2, ![50000, 256]⟩
abbrev S2x1600000 : Shape := ⟨2, ![2, 1600000]⟩
abbrev S1600000 : Shape := ⟨1, ![1600000]⟩
abbrev S256x64 : Shape := ⟨2, ![256, 64]⟩
abbrev S64 : Shape := ⟨1, ![64]⟩
abbrev S64x40 : Shape := ⟨2, ![64, 40]⟩
abbrev S40 : Shape := ⟨1, ![40]⟩
abbrev S1x1600000 : Shape := ⟨2, ![1, 1600000]⟩
abbrev S50000 : Shape := ⟨1, ![50000]⟩
abbrev S1650000 : Shape := ⟨1, ![1650000]⟩
abbrev S_ : Shape := ⟨0, ![]⟩
abbrev S1650000x1 : Shape := ⟨2, ![1650000, 1]⟩
abbrev S50000x64 : Shape := ⟨2, ![50000, 64]⟩
abbrev S1650000x64 : Shape := ⟨2, ![1650000, 64]⟩
abbrev S1x64 : Shape := ⟨2, ![1, 64]⟩
abbrev S50000x40 : Shape := ⟨2, ![50000, 40]⟩
abbrev S1650000x40 : Shape := ⟨2, ![1650000, 40]⟩
abbrev S1x40 : Shape := ⟨2, ![1, 40]⟩
abbrev S50000x1 : Shape := ⟨2, ![50000, 1]⟩

abbrev nBuf : Space → Nat
  | .hbm => 106
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x1600000, .i32⟩
  | .hbm, ⟨2, _⟩ => ⟨S1600000, .f32⟩
  | .hbm, ⟨3, _⟩ => ⟨S256x64, .f32⟩
  | .hbm, ⟨4, _⟩ => ⟨S64, .f32⟩
  | .hbm, ⟨5, _⟩ => ⟨S64x40, .f32⟩
  | .hbm, ⟨6, _⟩ => ⟨S40, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S50000, .i32⟩
  | .hbm, ⟨12, _⟩ => ⟨S1650000, .i32⟩
  | .hbm, ⟨13, _⟩ => ⟨S1650000, .i32⟩
  | .hbm, ⟨14, _⟩ => ⟨S_, .f32⟩
  | .hbm, ⟨15, _⟩ => ⟨S50000, .f32⟩
  | .hbm, ⟨16, _⟩ => ⟨S1650000, .f32⟩
  | .hbm, ⟨17, _⟩ => ⟨S_, .f32⟩
  | .hbm, ⟨18, _⟩ => ⟨S50000, .f32⟩
  | .hbm, ⟨19, _⟩ => ⟨S1650000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S1650000, .i32⟩
  | .hbm, ⟨30, _⟩ => ⟨S1650000, .i1⟩
  | .hbm, ⟨31, _⟩ => ⟨S_, .i32⟩
  | .hbm, ⟨32, _⟩ => ⟨S1650000, .i32⟩
  | .hbm, ⟨33, _⟩ => ⟨S1650000, .i32⟩
  | .hbm, ⟨34, _⟩ => ⟨S1650000, .i32⟩
  | .hbm, ⟨35, _⟩ => ⟨S1650000x1, .i32⟩
  | .hbm, ⟨36, _⟩ => ⟨S1650000, .f32⟩
  | .hbm, ⟨37, _⟩ => ⟨S1650000, .f32⟩
  | .hbm, ⟨38, _⟩ => ⟨S_, .i32⟩
  | .hbm, ⟨39, _⟩ => ⟨S1650000, .i32⟩
  | .hbm, ⟨40, _⟩ => ⟨S1650000, .i1⟩
  | .hbm, ⟨41, _⟩ => ⟨S_, .i32⟩
  | .hbm, ⟨42, _⟩ => ⟨S1650000, .i32⟩
  | .hbm, ⟨43, _⟩ => ⟨S1650000, .i32⟩
  | .hbm, ⟨44, _⟩ => ⟨S1650000, .i32⟩
  | .hbm, ⟨45, _⟩ => ⟨S1650000x1, .i32⟩
  | .hbm, ⟨46, _⟩ => ⟨S1650000, .f32⟩
  | .hbm, ⟨47, _⟩ => ⟨S1650000, .f32⟩
  | .hbm, ⟨48, _⟩ => ⟨S50000x64, .f32⟩
  | .hbm, ⟨49, _⟩ => ⟨S_, .i32⟩
  | .hbm, ⟨50, _⟩ => ⟨S1650000, .i32⟩
  | .hbm, ⟨51, _⟩ => ⟨S1650000, .i1⟩
  | .hbm, ⟨52, _⟩ => ⟨S_, .i32⟩
  | .hbm, ⟨53, _⟩ => ⟨S1650000, .i32⟩
  | .hbm, ⟨54, _⟩ => ⟨S1650000, .i32⟩
  | .hbm, ⟨55, _⟩ => ⟨S1650000, .i32⟩
  | .hbm, ⟨56, _⟩ => ⟨S1650000x1, .i32⟩
  | .hbm, ⟨57, _⟩ => ⟨S1650000x64, .f32⟩
  | .hbm, ⟨58, _⟩ => ⟨S1650000x1, .f32⟩
  | .hbm, ⟨59, _⟩ => ⟨S1650000x64, .f32⟩
  | .hbm, ⟨60, _⟩ => ⟨S1650000x64, .f32⟩
  | .hbm, ⟨61, _⟩ => ⟨S_, .f32⟩
  | .hbm, ⟨62, _⟩ => ⟨S50000x64, .f32⟩
  | .hbm, ⟨63, _⟩ => ⟨S1650000x1, .i32⟩
  | .hbm, ⟨64, _⟩ => ⟨S50000x64, .f32⟩
  | .hbm, ⟨65, _⟩ => ⟨S1x64, .f32⟩
  | .hbm, ⟨66, _⟩ => ⟨S50000x64, .f32⟩
  | .hbm, ⟨67, _⟩ => ⟨S50000x64, .f32⟩
  | .hbm, ⟨68, _⟩ => ⟨S_, .f32⟩
  | .hbm, ⟨69, _⟩ => ⟨S50000x64, .f32⟩
  | .hbm, ⟨70, _⟩ => ⟨S50000x64, .f32⟩
  | .hbm, ⟨71, _⟩ => ⟨S50000x40, .f32⟩
  | .hbm, ⟨72, _⟩ => ⟨S_, .i32⟩
  | .hbm, ⟨73, _⟩ => ⟨S1650000, .i32⟩
  | .hbm, ⟨74, _⟩ => ⟨S1650000, .i1⟩
  | .hbm, ⟨75, _⟩ => ⟨S_, .i32⟩
  | .hbm, ⟨76, _⟩ => ⟨S1650000, .i32⟩
  | .hbm, ⟨77, _⟩ => ⟨S1650000, .i32⟩
  | .hbm, ⟨78, _⟩ => ⟨S1650000, .i32⟩
  | .hbm, ⟨79, _⟩ => ⟨S1650000x1, .i32⟩
  | .hbm, ⟨80, _⟩ => ⟨S1650000x40, .f32⟩
  | .hbm, ⟨81, _⟩ => ⟨S1650000x1, .f32⟩
  | .hbm, ⟨82, _⟩ => ⟨S1650000x40, .f32⟩
  | .hbm, ⟨83, _⟩ => ⟨S1650000x40, .f32⟩
  | .hbm, ⟨84, _⟩ => ⟨S_, .f32⟩
  | .hbm, ⟨85, _⟩ => ⟨S50000x40, .f32⟩
  | .hbm, ⟨86, _⟩ => ⟨S1650000x1, .i32⟩
  | .hbm, ⟨87, _⟩ => ⟨S50000x40, .f32⟩
  | .hbm, ⟨88, _⟩ => ⟨S1x40, .f32⟩
  | .hbm, ⟨89, _⟩ => ⟨S50000x40, .f32⟩
  | .hbm, ⟨90, _⟩ => ⟨S50000x40, .f32⟩
  | .hbm, ⟨91, _⟩ => ⟨S_, .f32⟩
  | .hbm, ⟨92, _⟩ => ⟨S50000, .f32⟩
  | .hbm, ⟨93, _⟩ => ⟨S_, .f32⟩
  | .hbm, ⟨94, _⟩ => ⟨S50000, .f32⟩
  | .hbm, ⟨95, _⟩ => ⟨S50000, .f32⟩
  | .hbm, ⟨96, _⟩ => ⟨S50000x1, .f32⟩
  | .hbm, ⟨97, _⟩ => ⟨S50000x40, .f32⟩
  | .hbm, ⟨98, _⟩ => ⟨S50000x40, .f32⟩
  | .hbm, ⟨99, _⟩ => ⟨S50000x40, .f32⟩
  | .hbm, ⟨100, _⟩ => ⟨S_, .f32⟩
  | .hbm, ⟨101, _⟩ => ⟨S50000, .f32⟩
  | .hbm, ⟨102, _⟩ => ⟨S50000x1, .f32⟩
  | .hbm, ⟨103, _⟩ => ⟨S50000x1, .f32⟩
  | .hbm, ⟨104, _⟩ => ⟨S50000x40, .f32⟩
  | .hbm, ⟨105, _⟩ => ⟨S50000x40, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_4 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_6 : Ref sig .tc := ⟨.hbm, 49, rfl⟩
abbrev main_v34 : Ref sig .tc := ⟨.hbm, 50, rfl⟩
abbrev main_v35 : Ref sig .tc := ⟨.hbm, 51, rfl⟩
abbrev main_c_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_call1_cst : Ref sig .tc := ⟨.hbm, 68, rfl⟩
abbrev main_call1_v0 : Ref sig .tc := ⟨.hbm, 69, rfl⟩
abbrev main_v50 : Ref sig .tc := ⟨.hbm, 70, rfl⟩
abbrev main_v51 : Ref sig .tc := ⟨.hbm, 71, rfl⟩
abbrev main_c_9 : Ref sig .tc := ⟨.hbm, 72, rfl⟩
abbrev main_v52 : Ref sig .tc := ⟨.hbm, 73, rfl⟩
abbrev main_v53 : Ref sig .tc := ⟨.hbm, 74, rfl⟩
abbrev main_c_10 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_11 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_call2_cst : Ref sig .tc := ⟨.hbm, 91, rfl⟩
abbrev main_call2_v0 : Ref sig .tc := ⟨.hbm, 92, rfl⟩
abbrev main_call2_cst_0 : Ref sig .tc := ⟨.hbm, 93, rfl⟩
abbrev main_call2_v1 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_call2_v5 : Ref sig .tc := ⟨.hbm, 98, rfl⟩
abbrev main_call2_v6 : Ref sig .tc := ⟨.hbm, 99, rfl⟩
abbrev main_call2_cst_1 : Ref sig .tc := ⟨.hbm, 100, rfl⟩
abbrev main_call2_v7 : Ref sig .tc := ⟨.hbm, 101, rfl⟩
abbrev main_call2_v8 : Ref sig .tc := ⟨.hbm, 102, rfl⟩
abbrev main_call2_v9 : Ref sig .tc := ⟨.hbm, 103, rfl⟩
abbrev main_call2_v10 : Ref sig .tc := ⟨.hbm, 104, rfl⟩
abbrev main_v68 : Ref sig .tc := ⟨.hbm, 105, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S50000 : S_.BroadcastsInDim S50000 (![] : Fin 0 → Fin S50000.rank)
  bcast_S1650000_S1650000x1_0 : S1650000.BroadcastsInDim S1650000x1 (![0] : Fin 1 → Fin S1650000x1.rank)
  bcast_S_S1650000 : S_.BroadcastsInDim S1650000 (![] : Fin 0 → Fin S1650000.rank)
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S1650000x1_S1650000x40_0_1 : S1650000x1.BroadcastsInDim S1650000x40 (![0, 1] : Fin 2 → Fin S1650000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x256_S256x64_S50000x64_1_0_0_1_n_n_wf : DotDims.WF S50000x256 S256x64 S50000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  dot_S50000x64_S64x40_S50000x40_1_0_0_1_n_n_wf : DotDims.WF S50000x64 S64x40 S50000x40 [1] [0] [0] [1] [] []
  gather_S50000x40_S1650000x1_S1650000x40_1_0_n_n_0_1_140_wf : GatherDims.WF S50000x40 S1650000x1 S1650000x40 [1] [0] [] [0] [] 1 ![1, 40]
  scatter_S50000x40_S1650000x1_S1650000x40_1_0_0_1_wf : ScatterDims.WF S50000x40 S1650000x1 S1650000x40 [1] [0] [0] 1

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf
def dot_S50000x64_S64x40_S50000x40_1_0_0_1_n_n : DotDims S50000x64 S64x40 S50000x40 where
  lhsContracting := [1]
  rhsContracting := [0]
  lhsNonContracting := [0]
  rhsNonContracting := [1]
  lhsBatch := []
  rhsBatch := []
  wf := dot_S50000x64_S64x40_S50000x40_1_0_0_1_n_n_wf
def gather_S50000x40_S1650000x1_S1650000x40_1_0_n_n_0_1_140 : GatherDims S50000x40 S1650000x1 S1650000x40 where
  offsetDims := [1]
  collapsedSliceDims := [0]
  operandBatchingDims := []
  startIndicesBatchingDims := []
  startIndexMap := [0]
  indexVectorDim := 1
  sliceSizes := ![1, 40]
  wf := gather_S50000x40_S1650000x1_S1650000x40_1_0_n_n_0_1_140_wf
def scatter_S50000x40_S1650000x1_S1650000x40_1_0_0_1 : ScatterDims S50000x40 S1650000x1 S1650000x40 where
  updateWindowDims := [1]
  insertedWindowDims := [0]
  scatterDimsToOperandDims := [0]
  indexVectorDim := 1
  wf := scatter_S50000x40_S1650000x1_S1650000x40_1_0_0_1_wf

class Facts : Prop extends Facts₀ where

variable [Facts]
-- ==== Proof.KRun.lean ====
/-
  The idealized program's run, with its result named.

  The program is nine stretches in a row: host operations, then a product of the node features with the first weight
  matrix computed block of rows by block of rows, host operations (the edge gather, scale and scatter-add, the bias, the
  rectifier), the second product, host operations again, and a row-wise log-softmax, also block by block. Each stretch
  turns the contents of the device's buffers into new contents; `W9` is what the buffers hold after the ninth. Every
  weakly fair execution terminates, without a fault, with every buffer at `W9`; in particular the result buffer holds
  `W9` there, and the seven arguments are as they were launched.
-/
import proofs.«110912_j57105885167693_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends, nothing faulting, with the result buffer at the ninth boundary's
    contents and every argument as launched: the nine segments in a row from the launch memory, the last thread state
    read against the final memory. -/
theorem run_result : θ_run defs (onTc (τ := τ) (main (F := F))) ⟨m, fun _ => 0, ρ⟩ (fun r => ∀ c : Dev nD,
      r.2.mem ((c.tc : Thread nD τ).loc main_v68) = W9 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v68 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c)⟩)

end Cert.KernelIdeal.Whole

end
-- ==== Proof.Chain.lean ====
/-
  The graph half of the two-layer network, as functions of arrays.

  Between and around its dense products the program works on the edge list: it appends one self loop per node to the
  sources, the targets and the edge weights; sums the weights arriving at each node (the degree), takes the reciprocal
  square root where the degree is positive and zero elsewhere, and gives each edge the coefficient
  dinv[source] · weight · dinv[target]. A layer then gathers the transformed features of every edge's source row, scales
  each gathered row by its edge's coefficient, sums the rows arriving at each node, and adds the bias row; the first layer
  is followed by the rectifier. Both programs perform exactly these operations, so they are named here once and never
  opened: the certificate only needs that equal inputs give equal outputs.
-/
import proofs.«110912_j57105885167693_1_alg».proof.KernelIdeal

noncomputable section

namespace Cert.Gcn

open Cert.KernelIdeal Idealize.ShloMosaic

variable {F : FTy → Type} [FloatOps F] [Facts₀]

open Facts₀

/-- The edges' sources (row 0 of the edge list) followed by the nodes 0 … 49999, one self loop each. -/
def srcIdx (ei : Vec F S2x1600000 .i32) : Vec F S1650000 .i32 :=
  concatenate S1650000 0 [⟨S1600000, shapeCast _ (extractStridedSlice S1x1600000 ![0, 0] ei slices_S2x1600000_S1x1600000_0_0) shapeCasts_S1x1600000_S1600000⟩, ⟨S50000, iotaInDim S50000 32 0⟩] concatenates_S1600000_S50000_S1650000_d0

/-- The edges' targets (row 1 of the edge list) followed by the nodes 0 … 49999. -/
def dstIdx (ei : Vec F S2x1600000 .i32) : Vec F S1650000 .i32 :=
  concatenate S1650000 0 [⟨S1600000, shapeCast _ (extractStridedSlice S1x1600000 ![1, 0] ei slices_S2x1600000_S1x1600000_1_0) shapeCasts_S1x1600000_S1600000⟩, ⟨S50000, iotaInDim S50000 32 0⟩] concatenates_S1600000_S50000_S1650000_d0

/-- The edge weights followed by a weight of one for every self loop. -/
def weights (ea : Vec F S1600000 .f32) : Vec F S1650000 .f32 :=
  concatenate S1650000 0 [⟨S1600000, ea⟩, ⟨S50000, broadcastInDim S50000 ![] bcast_S_S50000 (constant (F := F) S_ .f32 0x3F800000#32)⟩] concatenates_S1600000_S50000_S1650000_d0

/-- A node index as a gather takes it: a negative one counted from the end, the indices as a column. -/
def wrapped (ix : Vec F S1650000 .i32) : Vec F S1650000x1 .i32 :=
  broadcastInDim S1650000x1 ![0] bcast_S1650000_S1650000x1_0
    (select (cmpi .slt ix (broadcastInDim S1650000 ![] bcast_S_S1650000 (constantI S_ 32 0#32)))
      (addi ix (broadcastInDim S1650000 ![] bcast_S_S1650000 (constantI S_ 32 50000#32))) ix)

/-- The sum of the weights arriving at each node. -/
def degree (dst : Vec F S1650000 .i32) (w : Vec F S1650000 .f32) : Vec F S50000 .f32 :=
  Host.scatterAdd scatter_S50000_S1650000x1_S1650000_n_0_0_1
    (broadcastInDim S50000 ![] bcast_S_S50000 (constant (F := F) S_ .f32 0x00000000#32))
    (broadcastInDim S1650000x1 ![0] bcast_S1650000_S1650000x1_0 dst) w

/-- One over the square root of a positive degree, zero for any other. -/
def invSqrtDeg (deg : Vec F S50000 .f32) : Vec F S50000 .f32 :=
  select (cmpf .ogt deg (broadcastInDim S50000 ![] bcast_S_S50000 (constant (F := F) S_ .f32 0x00000000#32)))
    (Host.rsqrt deg) (broadcastInDim S50000 ![] bcast_S_S50000 (constant (F := F) S_ .f32 0x00000000#32))

/-- Each edge's coefficient dinv[source] · weight · dinv[target]. -/
def edgeCoef (src dst : Vec F S1650000 .i32) (w : Vec F S1650000 .f32) (dinv : Vec F S50000 .f32) : Vec F S1650000 .f32 :=
  mulf (mulf (Host.gather gather_S50000_S1650000x1_S1650000_n_0_n_n_0_1_1 dinv (wrapped src)) w)
    (Host.gather gather_S50000_S1650000x1_S1650000_n_0_n_n_0_1_1 dinv (wrapped dst))

/-- The coefficients from the edge list and the edge weights. -/
def coefOf (ei : Vec F S2x1600000 .i32) (ea : Vec F S1600000 .f32) : Vec F S1650000 .f32 :=
  edgeCoef (srcIdx ei) (dstIdx ei) (weights ea) (invSqrtDeg (degree (dstIdx ei) (weights ea)))

/-- The first layer's aggregation of 64 channels: gather source rows, scale by the coefficient, sum into the targets,
    add the bias row. -/
def aggregate64 (h : Vec F S50000x64 .f32) (src dst : Vec F S1650000 .i32) (coef : Vec F S1650000 .f32)
    (b : Vec F S64 .f32) : Vec F S50000x64 .f32 :=
  addf
    (Host.scatterAdd scatter_S50000x64_S1650000x1_S1650000x64_1_0_0_1
      (broadcastInDim S50000x64 ![] bcast_S_S50000x64 (constant (F := F) S_ .f32 0x00000000#32))
      (broadcastInDim S1650000x1 ![0] bcast_S1650000_S1650000x1_0 dst)
      (mulf (Host.gather gather_S50000x64_S1650000x1_S1650000x64_1_0_n_n_0_1_164 h (wrapped src))
        (broadcastInDim S1650000x64 ![0, 1] bcast_S1650000x1_S1650000x64_0_1
          (broadcastInDim S1650000x1 ![0] bcast_S1650000_S1650000x1_0 coef))))
    (broadcastInDim S50000x64 ![0, 1] bcast_S1x64_S50000x64_0_1 (broadcastInDim S1x64 ![1] bcast_S64_S1x64_1 b))

/-- The rectifier: the larger of each entry and zero. -/
def rectify64 (h : Vec F S50000x64 .f32) : Vec F S50000x64 .f32 :=
  maximumf h (broadcastInDim S50000x64 ![] bcast_S_S50000x64 (constant (F := F) S_ .f32 0x00000000#32))

/-- The second layer's aggregation, of 40 channels. -/
def aggregate40 (h : Vec F S50000x40 .f32) (src dst : Vec F S1650000 .i32) (coef : Vec F S1650000 .f32)
    (b : Vec F S40 .f32) : Vec F S50000x40 .f32 :=
  addf
    (Host.scatterAdd scatter_S50000x40_S1650000x1_S1650000x40_1_0_0_1
      (broadcastInDim S50000x40 ![] bcast_S_S50000x40 (constant (F := F) S_ .f32 0x00000000#32))
      (broadcastInDim S1650000x1 ![0] bcast_S1650000_S1650000x1_0 dst)
      (mulf (Host.gather gather_S50000x40_S1650000x1_S1650000x40_1_0_n_n_0_1_140 h (wrapped src))
        (broadcastInDim S1650000x40 ![0, 1] bcast_S1650000x1_S1650000x40_0_1
          (broadcastInDim S1650000x1 ![0] bcast_S1650000_S1650000x1_0 coef))))
    (broadcastInDim S50000x40 ![0, 1] bcast_S1x40_S50000x40_0_1 (broadcastInDim S1x40 ![1] bcast_S40_S1x40_1 b))

end Cert.Gcn

end
-- ==== Proof.Stretches.lean ====
/-
  The three stretches of host operations between the regions, each as a function of the contents it starts from.

  Read from ANY contents `W` of the device's buffers, a stretch leaves in each buffer it writes the operations' value of
  the buffers it reads, and leaves every other buffer alone. Stated this way the stretches can be joined at the
  boundaries without ever expanding what an earlier stretch computed.
-/
import proofs.«110912_j57105885167693_1_alg».proof.Proof.Gen.KernelIdeal.Launch
import proofs.«110912_j57105885167693_1_alg».proof.Proof.Chain
import Idealize.ShloMosaic.Lib.StableHlo.Run

set_option maxRecDepth 16384

noncomputable section

namespace Cert.KernelIdeal.Whole

open Cert.KernelIdeal Cert.KernelIdeal.Gen Cert.Gcn
open Idealize.ShloMosaic Idealize.ShloMosaic.TcCoe Idealize.ShloMosaic.StableHlo
open Idealize.SL Idealize.SL.Sem

section Stretches
variable {F : FTy → Type} [FloatOps F]

set_option maxHeartbeats 40000000 in
/-- The host operations before the first product, from any contents `W`: they leave the endpoints with self loops and
    the edges' coefficients as functions of the edge list and the edge weights, and write none of the other arguments. -/
theorem stretch0 (W : Valuation τ sig (Elt F)) :
    StableHlo.after hostOps0_2 (StableHlo.after hostOps0_1 (StableHlo.after hostOps0 W)) (Proc.devRef .tc main_v5) = srcIdx (W (Proc.devRef .tc main_arg1))
    ∧ StableHlo.after hostOps0_2 (StableHlo.after hostOps0_1 (StableHlo.after hostOps0 W)) (Proc.devRef .tc main_v6) = dstIdx (W (Proc.devRef .tc main_arg1))
    ∧ StableHlo.after hostOps0_2 (StableHlo.after hostOps0_1 (StableHlo.after hostOps0 W)) (Proc.devRef .tc main_v32) = coefOf (W (Proc.devRef .tc main_arg1)) (W (Proc.devRef .tc main_arg2))
    ∧ StableHlo.after hostOps0_2 (StableHlo.after hostOps0_1 (StableHlo.after hostOps0 W)) (Proc.devRef .tc main_arg0) = W (Proc.devRef .tc main_arg0)
    ∧ StableHlo.after hostOps0_2 (StableHlo.after hostOps0_1 (StableHlo.after hostOps0 W)) (Proc.devRef .tc main_arg3) = W (Proc.devRef .tc main_arg3)
    ∧ StableHlo.after hostOps0_2 (StableHlo.after hostOps0_1 (StableHlo.after hostOps0 W)) (Proc.devRef .tc main_arg4) = W (Proc.devRef .tc main_arg4)
    ∧ StableHlo.after hostOps0_2 (StableHlo.after hostOps0_1 (StableHlo.after hostOps0 W)) (Proc.devRef .tc main_arg5) = W (Proc.devRef .tc main_arg5)
    ∧ StableHlo.after hostOps0_2 (StableHlo.after hostOps0_1 (StableHlo.after hostOps0 W)) (Proc.devRef .tc main_arg6) = W (Proc.devRef .tc main_arg6) := by
  refine ⟨?_, ?_, ?_, ?_, ?_, ?_, ?_, ?_⟩ <;> after_results_simp <;> rfl

set_option maxHeartbeats 40000000 in
/-- The host operations between the two products, from any contents `W`: the first product aggregated over the edges,
    the first bias added, rectified; the endpoints, the coefficients and the later arguments untouched. -/
theorem stretch1 (W : Valuation τ sig (Elt F)) :
    StableHlo.after hostOps1_1 (StableHlo.after hostOps1 W) (Proc.devRef .tc main_v50)
      = rectify64 (aggregate64 (W (Proc.devRef .tc main_v33)) (W (Proc.devRef .tc main_v5)) (W (Proc.devRef .tc main_v6)) (W (Proc.devRef .tc main_v32)) (W (Proc.devRef .tc main_arg4)))
    ∧ StableHlo.after hostOps1_1 (StableHlo.after hostOps1 W) (Proc.devRef .tc main_v5) = W (Proc.devRef .tc main_v5)
    ∧ StableHlo.after hostOps1_1 (StableHlo.after hostOps1 W) (Proc.devRef .tc main_v6) = W (Proc.devRef .tc main_v6)
    ∧ StableHlo.after hostOps1_1 (StableHlo.after hostOps1 W) (Proc.devRef .tc main_v32) = W (Proc.devRef .tc main_v32)
    ∧ StableHlo.after hostOps1_1 (StableHlo.after hostOps1 W) (Proc.devRef .tc main_arg5) = W (Proc.devRef .tc main_arg5)
    ∧ StableHlo.after hostOps1_1 (StableHlo.after hostOps1 W) (Proc.devRef .tc main_arg6) = W (Proc.devRef .tc main_arg6) := by
  refine ⟨?_, ?_, ?_, ?_, ?_, ?_⟩ <;> after_results_simp <;> rfl

set_option maxHeartbeats 8000000 in
/-- The host operations between the second product and the last region, from any contents `W`: the second product
    aggregated over the edges with the second bias. -/
theorem stretch2 (W : Valuation τ sig (Elt F)) :
    StableHlo.after hostOps2 W (Proc.devRef .tc main_v67)
      = aggregate40 (W (Proc.devRef .tc main_v51)) (W (Proc.devRef .tc main_v5)) (W (Proc.devRef .tc main_v6)) (W (Proc.devRef .tc main_v32)) (W (Proc.devRef .tc main_arg6)) := by
  after_results_simp
  rfl

end Stretches

end Cert.KernelIdeal.Whole

end
-- ==== Proof.Spec.lean ====
/-
  The dense product of the network as a function over the extended reals.

  `matProd l r` is the textbook product of an n × K matrix with a K × M matrix: entry (p, c) is ∑ₖ l(p, k) · r(k, c).
  `pairSum l r il ir` is the same kind of sum with the two factors' positions given by name, ∑ₖ l(il k) · r(ir k):
  the form in which a block of rows of the product first appears, before its positions are recognised.
-/
import Idealize.ShloMosaic.Lib.ValueIdx
import Idealize.ShloMosaic.PureOps.Ideal

noncomputable section

open scoped BigOperators

namespace Cert.Gcn

open Idealize.ShloMosaic Idealize.ShloMosaic.ValueIdx

/-- The product of an n × K matrix and a K × M matrix over the extended reals. -/
def matProd {n K M : ℕ} (l : (⟨2, ![n, K]⟩ : Shape).Idx → EReal) (r : (⟨2, ![K, M]⟩ : Shape).Idx → EReal) :
    (⟨2, ![n, M]⟩ : Shape).Idx → EReal :=
  fun i => ∑ k : Fin K, l (ix2 (i 0) k) * r (ix2 k (i 1))

/-- A sum of K products of an entry of `l` with an entry of `r`, at named positions. -/
def pairSum {A B : Type} {K : ℕ} (l : A → EReal) (r : B → EReal) (il : Fin K → A) (ir : Fin K → B) : EReal :=
  ∑ k : Fin K, l (il k) * r (ir k)

/-- Equal positions give equal sums. -/
theorem pairSum_congr {A B : Type} {K : ℕ} (l : A → EReal) (r : B → EReal) {il il' : Fin K → A} {ir ir' : Fin K → B}
    (h0 : ∀ k, il k = il' k) (h1 : ∀ k, ir k = ir' k) : pairSum l r il ir = pairSum l r il' ir' := by
  rw [funext h0, funext h1]

/-- An entry of the product is the sum over k of the left factor at (row, k) times the right factor at (k, column). -/
theorem matProd_apply {n K M : ℕ} (l : (⟨2, ![n, K]⟩ : Shape).Idx → EReal) (r : (⟨2, ![K, M]⟩ : Shape).Idx → EReal)
    (i : (⟨2, ![n, M]⟩ : Shape).Idx) :
    matProd l r i = pairSum l r (fun k : Fin K => ix2 (i 0) k) (fun k : Fin K => ix2 k (i 1)) := rfl

end Cert.Gcn

end
-- ==== Proof.LibColumns.lean ====
/-
  Three ways a column of numbers meets a matrix, read at an index, and a row sum — general in the extents.

  A vector of `a` numbers recast as an `a × 1` column reads, at `(p, 0)`, entry `p`; an `a × 1` column spread over `b`
  columns reads, at `(p, c)`, the column's entry `p`; and the sum of a matrix over its second axis, over the extended
  reals, reads at `p` the sum over `k` of the entries `(p, k)`. (The transposed column `a × 1 → 1 × a` and the row spread
  over many rows are already in the library.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibColumns

open Idealize.ShloMosaic Idealize.ShloMosaic.ValueIdx

variable {α : Type}

/-- A vector of `a` entries cast to an `a × 1` column reads, at `(p, z)`, the vector's entry `p`. -/
theorem shapeCast_a_a1_apply {a : ℕ} (x : (⟨1, ![a]⟩ : Shape).Idx → α)
    (h : (⟨1, ![a]⟩ : Shape).ShapeCasts ⟨2, ![a, 1]⟩) (p : Fin a) (z : Fin 1) :
    shapeCast ⟨2, ![a, 1]⟩ x h (ix2 p z) = x (ix1 p) := by
  refine shapeCast_apply x h (ix2 p z) (ix1 p) ?_
  rw [Shape.rowMajor_val_one, Shape.rowMajor_val_two]
  show p.val = p.val * 1 + z.val
  have := z.isLt
  omega

/-- An `a × 1` column broadcast to `a × b` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- Over the extended reals the sum of an `n × m` matrix along its second axis reads, at `p`, `∑ₖ src (p, k)`. -/
theorem rowSum_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.add.neutral φ hφ)
    (p : Fin n) :
    multiReduction .add [1] ⟨1, ![n]⟩ src acc h hφ hacc (ix1 p) = ∑ k : Fin m, src (ix2 p k) := by
  refine (Ideal.multiReduction_add_single src acc h hφ hacc (ix1 p)).trans ?_
  refine Finset.sum_congr rfl fun k _ => congrArg src ?_
  funext c
  apply Fin.ext
  match c with
  | ⟨0, _⟩ => rfl
  | ⟨1, _⟩ => rfl

end Cert.LibColumns

end
-- ==== Proof.LibRowMax.lean ====
/-
  The largest entry of each row of a matrix, read at an index — general in the extents.

  Over the extended reals the maximum of an `n × m` matrix along its second axis reads, at `p`, the fold of `max`, from the
  accumulator's value, over the entries `(p, k)` of row `p`: `max` is commutative and associative, so the order in which the
  row is folded does not matter.
-/
import Idealize.ShloMosaic.Lib.ValueIdx
import Idealize.ShloMosaic.PureOps.Ideal.Laws

noncomputable section

namespace Cert.LibRowMax

open Idealize.ShloMosaic Idealize.ShloMosaic.ValueIdx

/-- Over the extended reals the maximum of an `n × m` matrix along its second axis reads, at `p`, the fold of `max` from the
    accumulator's value over `k` of the entries `(p, k)`. -/
theorem rowMax_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.maximumf.neutral φ hφ)
    (p : Fin n) :
    multiReduction .maximumf [1] ⟨1, ![n]⟩ src acc h hφ hacc (ix1 p)
      = (Finset.univ : Finset (Fin m)).fold max (Ideal.ofBits φ acc) (fun k : Fin m => src (ix2 p k)) := by
  refine (Ideal.multiReduction_maximumf_single src acc h hφ hacc (ix1 p)).trans ?_
  have hf : (src ∘ h.lift (ix1 p)) = fun k : Fin m => src (ix2 p k) := funext fun k => congrArg src
    (funext fun c => Fin.ext (by match c with | ⟨0, _⟩ => rfl | ⟨1, _⟩ => rfl))
  exact congrArg (fun f => Finset.fold max (Ideal.ofBits φ acc) f (Finset.univ : Finset (Fin m))) hf

end Cert.LibRowMax

end
-- ==== Proof.LibLogSoftmax.lean ====
/-
  A row-wise log-softmax, read at an index — general in the extents.

  For a row `f` of scores its log-softmax at column `c` is (f c − M) − log ∑ₖ exp (f k − M), with M the row's largest
  score. A vector unit spells it with a lane maximum, a keepdims recast, a broadcast along the lanes, a lane sum; the host
  spells it with a reduce by maximum from −∞, a further maximum against −∞ (which changes nothing: the fold already starts
  there), a sum started from zero, and two broadcasts by dimension for each column. Over the extended reals both read, at
  entry (p, c) of an n × m matrix, the row formula at row p: subtraction, `exp` and `log` act entry by entry, and the
  row's maximum and the row's sum are the same fold and the same finite sum whichever unit takes them.
-/
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import proofs.«110912_j57105885167693_1_alg».proof.Proof.LibColumns
import proofs.«110912_j57105885167693_1_alg».proof.Proof.LibRowMax

noncomputable section

open scoped BigOperators

namespace Cert.LibLogSoftmax

open Idealize.ShloMosaic Idealize.ShloMosaic.ValueIdx

/-- The largest entry of a row, folded from the float word of −∞. -/
def rowTop {m : ℕ} (f : Fin m → EReal) : EReal :=
  (Finset.univ : Finset (Fin m)).fold max (Ideal.ofBits .f32 0xFF800000#32) f

/-- A row's log-softmax at column `c`. -/
def lsmEntry {m : ℕ} (f : Fin m → EReal) (c : Fin m) : EReal :=
  (f c - rowTop f) - Ideal.log (∑ k : Fin m, Ideal.exp (f k - rowTop f))

/-- The log-softmax of every row of an n × m matrix. -/
def logSoftmax {n m : ℕ} (h : (⟨2, ![n, m]⟩ : Shape).Idx → EReal) : (⟨2, ![n, m]⟩ : Shape).Idx → EReal :=
  fun i => lsmEntry (fun k => h (ix2 (i 0) k)) (i 1)

/-- The row's top is at least the word it is folded from, so taking the larger of the two changes nothing. -/
theorem max_word_rowTop {m : ℕ} (f : Fin m → EReal) : max (Ideal.ofBits .f32 0xFF800000#32) (rowTop f) = rowTop f :=
  max_eq_right ((Finset.le_fold_max (Ideal.ofBits .f32 0xFF800000#32)).mpr (Or.inl le_rfl))

variable {α : Type}

/-- A vector of `a` entries broadcast by dimension to an `a × 1` column reads, at `(p, z)`, entry `p`. -/
theorem bcastInDim_a_a1_apply {a : ℕ} (h : (⟨1, ![a]⟩ : Shape).BroadcastsInDim ⟨2, ![a, 1]⟩ ![0])
    (v : (⟨1, ![a]⟩ : Shape).Idx → α) (p : Fin a) (z : Fin 1) :
    broadcastInDim ⟨2, ![a, 1]⟩ ![0] h v (ix2 p z) = v (ix1 p) := by
  refine broadcastInDim_apply ![0] h v (ix2 p z) (ix1 p) fun ax => ?_
  match ax with
  | ⟨0, _⟩ =>
    show p.val = if a = 1 then 0 else p.val
    split
    · have := p.isLt; omega
    · rfl

/-- An `a × 1` column broadcast by dimension to `a × b` reads, at `(p, c)`, the column's entry `p`. -/
theorem bcastInDim_a1_ab_apply {a b : ℕ} (h : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- The host's reduce by maximum of an `n × m` matrix along its second axis, from the float word of −∞, reads at `p`
    the row's top. -/
theorem hostRowMax_apply {n m : ℕ} (x : FVec Ideal ⟨2, ![n, m]⟩ .f32)
    (hrt : (⟨2, ![n, m]⟩ : Shape).ReducesTo [1] ⟨1, ![n]⟩) (hr : (⟨2, ![n, m]⟩ : Shape).Reduces [1] ⟨1, ![n]⟩)
    (hu : 0 < (⟨0, ![]⟩ : Shape).numel) (p : Fin n) :
    Host.reduce FloatOps.maximumf x (constant (F := Ideal) (⟨0, ![]⟩ : Shape) .f32 0xFF800000#32) hrt hu (ix1 p)
      = rowTop (fun k : Fin m => x (ix2 p k)) := by
  rw [Host.reduce_eq_fold_single FloatOps.maximumf x _ hrt hr hu]
  have hf : (x ∘ hr.lift (ix1 p)) = fun k : Fin m => x (ix2 p k) := funext fun k => congrArg x
    (funext fun c => Fin.ext (by match c with | ⟨0, _⟩ => rfl | ⟨1, _⟩ => rfl))
  exact congrArg (fun f => Finset.fold max (Ideal.ofBits .f32 0xFF800000#32) f (Finset.univ : Finset (Fin m))) hf

/-- The host's sum of an `n × m` matrix along its second axis, started from the zero word, reads at `p` the row's sum. -/
theorem hostRowSum_apply {n m : ℕ} (x : FVec Ideal ⟨2, ![n, m]⟩ .f32)
    (hrt : (⟨2, ![n, m]⟩ : Shape).ReducesTo [1] ⟨1, ![n]⟩) (hr : (⟨2, ![n, m]⟩ : Shape).Reduces [1] ⟨1, ![n]⟩)
    (hu : 0 < (⟨0, ![]⟩ : Shape).numel) (p : Fin n) :
    Host.reduceAdd x (constant (F := Ideal) (⟨0, ![]⟩ : Shape) .f32 0x00000000#32) hrt hu (ix1 p)
      = ∑ k : Fin m, x (ix2 p k) := by
  rw [hostReduceAdd_apply, Ideal.hostReduceAdd_single hrt hr]
  show Ideal.ofBits .f32 0x00000000#32 + _ = _
  rw [Ideal.ofBits_zero_f32, zero_add]
  refine Finset.sum_congr rfl fun k _ => congrArg x ?_
  funext c
  apply Fin.ext
  match c with
  | ⟨0, _⟩ => rfl
  | ⟨1, _⟩ => rfl

/-- The vector unit's spelling, at entry (p, c): the row formula at row p. -/
theorem vector_apply {n m : ℕ} (x : FVec Ideal ⟨2, ![n, m]⟩ .f32)
    (hred : (⟨2, ![n, m]⟩ : Shape).Reduces [1] ⟨1, ![n]⟩) (hc : (⟨1, ![n]⟩ : Shape).ShapeCasts ⟨2, ![n, 1]⟩)
    (hb : (⟨2, ![n, 1]⟩ : Shape).Broadcasts ⟨2, ![n, m]⟩) (hφ : FKind.Formats .f32)
    (hmax : (0xFF800000#32 : BitVec FTy.f32.bits) = FKind.maximumf.neutral .f32 hφ)
    (hadd : (0x00000000#32 : BitVec FTy.f32.bits) = FKind.add.neutral .f32 hφ) (p : Fin n) (c : Fin m) :
    subf (subf x (broadcastTo ⟨2, ![n, m]⟩ (shapeCast ⟨2, ![n, 1]⟩ (multiReduction .maximumf [1] ⟨1, ![n]⟩ x 0xFF800000#32 hred hφ hmax) hc) hb))
      (broadcastTo ⟨2, ![n, m]⟩ (log (shapeCast ⟨2, ![n, 1]⟩ (multiReduction .add [1] ⟨1, ![n]⟩
        (exp (subf x (broadcastTo ⟨2, ![n, m]⟩ (shapeCast ⟨2, ![n, 1]⟩ (multiReduction .maximumf [1] ⟨1, ![n]⟩ x 0xFF800000#32 hred hφ hmax) hc) hb)))
        0x00000000#32 hred hφ hadd) hc)) hb) (ix2 p c)
      = lsmEntry (fun k : Fin m => x (ix2 p k)) c := by
  have hM : ∀ q : Fin m, broadcastTo ⟨2, ![n, m]⟩ (shapeCast ⟨2, ![n, 1]⟩ (multiReduction .maximumf [1] ⟨1, ![n]⟩ x 0xFF800000#32 hred hφ hmax) hc) hb (ix2 p q)
      = rowTop (fun k : Fin m => x (ix2 p k)) := fun q => by
    rw [Cert.LibColumns.broadcastTo_a1_ab_apply, Cert.LibColumns.shapeCast_a_a1_apply]
    exact Cert.LibRowMax.rowMax_apply x _ hred hφ hmax p
  generalize broadcastTo ⟨2, ![n, m]⟩ (shapeCast ⟨2, ![n, 1]⟩ (multiReduction .maximumf [1] ⟨1, ![n]⟩ x 0xFF800000#32 hred hφ hmax) hc) hb = B at hM ⊢
  have hS : broadcastTo ⟨2, ![n, m]⟩ (log (shapeCast ⟨2, ![n, 1]⟩ (multiReduction .add [1] ⟨1, ![n]⟩ (exp (subf x B)) 0x00000000#32 hred hφ hadd) hc)) hb (ix2 p c)
      = Ideal.log (∑ k : Fin m, Ideal.exp (x (ix2 p k) - rowTop (fun k : Fin m => x (ix2 p k)))) := by
    rw [Cert.LibColumns.broadcastTo_a1_ab_apply]
    show Ideal.log (shapeCast ⟨2, ![n, 1]⟩ (multiReduction .add [1] ⟨1, ![n]⟩ (exp (subf x B)) 0x00000000#32 hred hφ hadd) hc (ix2 p (0 : Fin 1))) = _
    rw [Cert.LibColumns.shapeCast_a_a1_apply, Cert.LibColumns.rowSum_apply]
    refine congrArg Ideal.log (Finset.sum_congr rfl fun k _ => ?_)
    show Ideal.exp (x (ix2 p k) - B (ix2 p k)) = _
    rw [hM k]
  show (x (ix2 p c) - B (ix2 p c)) - _ = _
  rw [hS, hM c]
  rfl

/-- The host's spelling, at entry (p, c): the same row formula at row p. -/
theorem host_apply {n m : ℕ} (x : FVec Ideal ⟨2, ![n, m]⟩ .f32)
    (hrt : (⟨2, ![n, m]⟩ : Shape).ReducesTo [1] ⟨1, ![n]⟩) (hr : (⟨2, ![n, m]⟩ : Shape).Reduces [1] ⟨1, ![n]⟩)
    (hu : 0 < (⟨0, ![]⟩ : Shape).numel)
    (hb0 : (⟨0, ![]⟩ : Shape).BroadcastsInDim ⟨1, ![n]⟩ ![])
    (hb1 : (⟨1, ![n]⟩ : Shape).BroadcastsInDim ⟨2, ![n, 1]⟩ ![0])
    (hb2 : (⟨2, ![n, 1]⟩ : Shape).BroadcastsInDim ⟨2, ![n, m]⟩ ![0, 1]) (p : Fin n) (c : Fin m) :
    subf (subf x (broadcastInDim ⟨2, ![n, m]⟩ ![0, 1] hb2 (broadcastInDim ⟨2, ![n, 1]⟩ ![0] hb1
        (maximumf (broadcastInDim ⟨1, ![n]⟩ ![] hb0 (constant (F := Ideal) (⟨0, ![]⟩ : Shape) .f32 0xFF800000#32))
          (Host.reduce FloatOps.maximumf x (constant (F := Ideal) (⟨0, ![]⟩ : Shape) .f32 0xFF800000#32) hrt hu)))))
      (broadcastInDim ⟨2, ![n, m]⟩ ![0, 1] hb2 (Host.log (broadcastInDim ⟨2, ![n, 1]⟩ ![0] hb1
        (Host.reduceAdd (Host.exp (subf x (broadcastInDim ⟨2, ![n, m]⟩ ![0, 1] hb2 (broadcastInDim ⟨2, ![n, 1]⟩ ![0] hb1
          (maximumf (broadcastInDim ⟨1, ![n]⟩ ![] hb0 (constant (F := Ideal) (⟨0, ![]⟩ : Shape) .f32 0xFF800000#32))
            (Host.reduce FloatOps.maximumf x (constant (F := Ideal) (⟨0, ![]⟩ : Shape) .f32 0xFF800000#32) hrt hu))))))
          (constant (F := Ideal) (⟨0, ![]⟩ : Shape) .f32 0x00000000#32) hrt hu)))) (ix2 p c)
      = lsmEntry (fun k : Fin m => x (ix2 p k)) c := by
  have hM : ∀ q : Fin m, broadcastInDim ⟨2, ![n, m]⟩ ![0, 1] hb2 (broadcastInDim ⟨2, ![n, 1]⟩ ![0] hb1
        (maximumf (broadcastInDim ⟨1, ![n]⟩ ![] hb0 (constant (F := Ideal) (⟨0, ![]⟩ : Shape) .f32 0xFF800000#32))
          (Host.reduce FloatOps.maximumf x (constant (F := Ideal) (⟨0, ![]⟩ : Shape) .f32 0xFF800000#32) hrt hu))) (ix2 p q)
      = rowTop (fun k : Fin m => x (ix2 p k)) := fun q => by
    rw [bcastInDim_a1_ab_apply, bcastInDim_a_a1_apply]
    show max (broadcastInDim ⟨1, ![n]⟩ ![] hb0 (constant (F := Ideal) (⟨0, ![]⟩ : Shape) .f32 0xFF800000#32) (ix1 p))
      (Host.reduce FloatOps.maximumf x (constant (F := Ideal) (⟨0, ![]⟩ : Shape) .f32 0xFF800000#32) hrt hu (ix1 p)) = _
    rw [broadcastInDim_scalar_apply, hostRowMax_apply x hrt hr hu p]
    exact max_word_rowTop _
  generalize broadcastInDim ⟨2, ![n, m]⟩ ![0, 1] hb2 (broadcastInDim ⟨2, ![n, 1]⟩ ![0] hb1
        (maximumf (broadcastInDim ⟨1, ![n]⟩ ![] hb0 (constant (F := Ideal) (⟨0, ![]⟩ : Shape) .f32 0xFF800000#32))
          (Host.reduce FloatOps.maximumf x (constant (F := Ideal) (⟨0, ![]⟩ : Shape) .f32 0xFF800000#32) hrt hu))) = B at hM ⊢
  have hS : broadcastInDim ⟨2, ![n, m]⟩ ![0, 1] hb2 (Host.log (broadcastInDim ⟨2, ![n, 1]⟩ ![0] hb1
        (Host.reduceAdd (Host.exp (subf x B)) (constant (F := Ideal) (⟨0, ![]⟩ : Shape) .f32 0x00000000#32) hrt hu))) (ix2 p c)
      = Ideal.log (∑ k : Fin m, Ideal.exp (x (ix2 p k) - rowTop (fun k : Fin m => x (ix2 p k)))) := by
    rw [bcastInDim_a1_ab_apply]
    show Ideal.log (broadcastInDim ⟨2, ![n, 1]⟩ ![0] hb1
        (Host.reduceAdd (Host.exp (subf x B)) (constant (F := Ideal) (⟨0, ![]⟩ : Shape) .f32 0x00000000#32) hrt hu) (ix2 p (0 : Fin 1))) = _
    rw [bcastInDim_a_a1_apply, hostRowSum_apply _ hrt hr hu p]
    refine congrArg Ideal.log (Finset.sum_congr rfl fun k _ => ?_)
    show Ideal.exp (x (ix2 p k) - B (ix2 p k)) = _
    rw [hM k]
  show (x (ix2 p c) - B (ix2 p c)) - _ = _
  rw [hS, hM c]
  rfl

end Cert.LibLogSoftmax

end
-- ==== Proof.Network.lean ====
/-
  The two-layer network as one function of its seven arguments, over the extended reals:
  the row-wise log-softmax of the second layer's aggregation of (the rectified first layer's aggregation of x · W1) · W2.
-/
import proofs.«110912_j57105885167693_1_alg».proof.Proof.Chain
import proofs.«110912_j57105885167693_1_alg».proof.Proof.Spec
import proofs.«110912_j57105885167693_1_alg».proof.Proof.LibLogSoftmax

noncomputable section

namespace Cert.Gcn

open Cert.KernelIdeal Idealize.ShloMosaic Cert.LibLogSoftmax

variable [Facts₀]

/-- The whole network as one function of the seven arguments. -/
def network (x0 : Vec Ideal S50000x256 .f32) (x1 : Vec Ideal S2x1600000 .i32) (x2 : Vec Ideal S1600000 .f32)
    (x3 : Vec Ideal S256x64 .f32) (x4 : Vec Ideal S64 .f32) (x5 : Vec Ideal S64x40 .f32) (x6 : Vec Ideal S40 .f32) :
    Vec Ideal S50000x40 .f32 :=
  logSoftmax (n := 50000) (m := 40)
    (aggregate40 (matProd (n := 50000) (K := 64) (M := 40)
        (rectify64 (aggregate64 (matProd (n := 50000) (K := 256) (M := 64) x0 x3) (srcIdx x1) (dstIdx x1) (coefOf x1 x2) x4)) x5)
      (srcIdx x1) (dstIdx x1) (coefOf x1 x2) x6)

end Cert.Gcn

end
-- ==== Proof.LibPlainDot.lean ====
/-
  A plain matrix product read at an entry, for any extents.

  The dimension numbers of a product of an `n` × `K` matrix with a `K` × `M` matrix that contracts the first matrix's
  columns against the second's rows index their sum by the contraction shape's positions. When that shape has the one
  axis of extent `K` and the two operand indices at output entry (p, c) and contraction position `k` are (p, k) and
  (k, c) — four coordinate facts a program's literal dimension numbers decide — the sum is the textbook one,
  `∑ k : Fin K, l (p, k) · r (k, c)`. On the extended reals this reads a vector unit's matrix product into a zero
  accumulator and the host's `dot_general` alike.
-/
import Idealize.ShloMosaic.Lib.ValueIdx
import Idealize.ShloMosaic.PureOps.Ideal.Laws

noncomputable section

open scoped BigOperators

namespace Cert.PlainDot

open Idealize.ShloMosaic Idealize.ShloMosaic.ValueIdx

/-- The contraction's sum, re-indexed by the one contracted coordinate. -/
theorem sum_contr_eq {n K M : Nat} (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (l : (⟨2, ![n, K]⟩ : Shape).Idx → EReal) (r : (⟨2, ![K, M]⟩ : Shape).Idx → EReal) (p : Fin n) (c : Fin M) :
    ∑ q : D.contr.Idx, l (D.lhsIdx (ix2 p c) q) * r (D.rhsIdx (ix2 p c) q) = ∑ k : Fin K, l (ix2 p k) * r (ix2 k c) := by
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact l0 _ _
    | ⟨1, _⟩ => exact (l1 _ _).trans hk)
  have er : D.rhsIdx (ix2 p c) ((contrEquiv1 D K hr hs).symm k) = ix2 k c := funext fun a => Fin.ext (by
    match a with
    | ⟨0, _⟩ => exact (r0 _ _).trans hk
    | ⟨1, _⟩ => exact r1 _ _)
  rw [el, er]

/-- A vector unit's matrix product into the zero accumulator, at entry (p, c): `∑ k, lhs (p, k) · rhs (k, c)`. -/
theorem matmul_zero_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (lhs : FVec Ideal (⟨2, ![n, K]⟩ : Shape) φ₁) (rhs : FVec Ideal (⟨2, ![K, M]⟩ : Shape) φ₂)
    (p : Fin n) (c : Fin M) :
    FloatOps.matmul D prec lhs rhs (constant (⟨2, ![n, M]⟩ : Shape) .f32 0x00000000#32) (ix2 p c)
      = ∑ k : Fin K, (lhs (ix2 p k) : EReal) * (rhs (ix2 k c) : EReal) :=
  (Ideal.matmul_constant_zero_apply D prec lhs rhs (ix2 p c)).trans (sum_contr_eq D hr hs l0 l1 r0 r1 lhs rhs p c)

/-- The host's `dot_general`, at entry (p, c): the same sum. -/
theorem dotGeneral_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (sched : HostSchedule)
    (lhs : FVec Ideal (⟨2, ![n, K]⟩ : Shape) φ₁) (rhs : FVec Ideal (⟨2, ![K, M]⟩ : Shape) φ₂) (p : Fin n) (c : Fin M) :
    FloatOps.dotGeneral D prec sched lhs rhs (ix2 p c) = ∑ k : Fin K, (lhs (ix2 p k) : EReal) * (rhs (ix2 k c) : EReal) :=
  (Ideal.dotGeneral_apply D prec sched lhs rhs (ix2 p c)).trans (sum_contr_eq D hr hs l0 l1 r0 r1 lhs rhs p c)

end Cert.PlainDot

end
-- ==== Proof.Region0.lean ====
/-
  The first dense product: the node features, 50000 × 256, against the first weight matrix, 256 × 64.

  The product is computed 2000 rows at a time: grid point t reads rows 2000·t … 2000·t + 1999 of the left matrix and the
  whole right matrix, rounds both to a shorter float format (the identity on the extended reals), multiplies them into a
  zero accumulator, and writes the 2000 × 64 block back as rows 2000·t … of the output. Entry (p, c) of a block is
  ∑ₖ left(2000·t + p, k) · right(k, c), which is entry (2000·t + p, c) of the whole product; the 25 blocks tile the
  50000 rows, so the output array ends holding the whole product of the two arrays as the region found them.
-/
import proofs.«110912_j57105885167693_1_alg».proof.Proof.Gen.KernelIdeal.Frame
import proofs.«110912_j57105885167693_1_alg».proof.Proof.Spec
import proofs.«110912_j57105885167693_1_alg».proof.Proof.LibPlainDot
import Idealize.ShloMosaic.Lib.Pipeline.Value
import Idealize.ShloMosaic.Lib.ValueIdx

set_option maxRecDepth 16384

noncomputable section

open scoped BigOperators

namespace Cert.KernelIdeal.Whole

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- The offsets of a whole-block access are all zero. -/
theorem zero_offsets0 : (![0, 0] : Fin 2 → Nat) = fun _ => 0 := funext fun a => by fin_cases a <;> rfl

/-! ## The contraction's coordinates: output entry (i₀, i₁) at contracted position q reads (i₀, q) and (q, i₁) -/

theorem lhs0_0 (i : S2000x64.Idx) (q : dot_S2000x256_S256x64_S2000x64_1_0_0_1_n_n.contr.Idx) :
    (dot_S2000x256_S256x64_S2000x64_1_0_0_1_n_n.lhsIdx i q 0).val = (i 0).val := by
  unfold DotDims.lhsIdx
  rw [dif_neg (show ¬(0 : Fin S2000x256.rank) ∈ dot_S2000x256_S256x64_S2000x64_1_0_0_1_n_n.lhsBatch by decide), dif_pos (show (0 : Fin S2000x256.rank) ∈ dot_S2000x256_S256x64_S2000x64_1_0_0_1_n_n.lhsNonContracting by decide)]
  rfl
theorem lhs0_1 (i : S2000x64.Idx) (q : dot_S2000x256_S256x64_S2000x64_1_0_0_1_n_n.contr.Idx) :
    (dot_S2000x256_S256x64_S2000x64_1_0_0_1_n_n.lhsIdx i q 1).val = (q ⟨0, by decide⟩).val :=
  dot_S2000x256_S256x64_S2000x64_1_0_0_1_n_n.lhsIdx_val_of_single rfl i q
theorem rhs0_0 (i : S2000x64.Idx) (q : dot_S2000x256_S256x64_S2000x64_1_0_0_1_n_n.contr.Idx) :
    (dot_S2000x256_S256x64_S2000x64_1_0_0_1_n_n.rhsIdx i q 0).val = (q ⟨0, by decide⟩).val :=
  dot_S2000x256_S256x64_S2000x64_1_0_0_1_n_n.rhsIdx_val_of_single rfl i q
theorem rhs0_1 (i : S2000x64.Idx) (q : dot_S2000x256_S256x64_S2000x64_1_0_0_1_n_n.contr.Idx) :
    (dot_S2000x256_S256x64_S2000x64_1_0_0_1_n_n.rhsIdx i q 1).val = (i 1).val := by
  unfold DotDims.rhsIdx
  rw [dif_neg (show ¬(1 : Fin S256x64.rank) ∈ dot_S2000x256_S256x64_S2000x64_1_0_0_1_n_n.rhsBatch by decide), dif_pos (show (1 : Fin S256x64.rank) ∈ dot_S2000x256_S256x64_S2000x64_1_0_0_1_n_n.rhsNonContracting by decide)]
  rfl

/-- What the body stores at (p, q) of its block: the row p of the left block against column q of the right one. -/
theorem block_entry0 (x0 : Vec Ideal S2000x256 .f32) (x1 : Vec Ideal S256x64 .f32) (p : Fin 2000) (q : Fin 64) :
    k0_pay1 (F := Ideal) x0 x1 (ix2 p q) = ∑ k : Fin 256, x0 (ix2 p k) * x1 (ix2 k q) := by
  unfold k0_pay1
  exact Cert.PlainDot.matmul_zero_apply dot_S2000x256_S256x64_S2000x64_1_0_0_1_n_n rfl rfl lhs0_0 lhs0_1 rhs0_0 rhs0_1 none _ _ p q

/-- Where the three windows' blocks sit at point t: the left and the output blocks at block row t, the right matrix whole. -/
theorem block_places0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section
variable (V : (c : Dev nD) → (b : Ref sig .tc) → Buf (Elt Ideal) ((c : Thread nD τ).loc b))

/-- What point t writes back is block t of the whole product of the arrays as the region finds them. -/
theorem written0_eq (c : Dev nD) (t : Fin cfg0.N) :
    (dat0 V c).flushed 2 t = ((cfg0.win 2).blk t).view.read (Elt Ideal)
      (Cert.Gcn.matProd (n := 50000) (K := 256) (M := 64) (V c main_arg0) (V c main_arg3)) := by
  show (cfg0.win 2).cut (grid0.coords t) ((dat0 V c).after 2 t) = _
  rw [after0_2]
  unfold out0_2
  rw [View.canon_unit_zero zero_offsets0]
  simp only [View.ld_unit_zero (S := S2000x256) zero_offsets0, View.ld_unit_zero (S := S256x64) zero_offsets0]
  obtain ⟨e0, e1, e2, e3, e4, e5⟩ := block_places0 t
  funext j
  obtain ⟨p, q, rfl⟩ : ∃ (p : Fin 2000) (q : Fin 64), j = ix2 p q := ⟨j 0, j 1, eq_ix2 j⟩
  refine (block_entry0 (iblk0 V c 0 t) (iblk0 V c 1 t) p q).trans ?_
  show Cert.Gcn.pairSum (K := 256) (V c main_arg0) (V c main_arg3) (fun k => ((cfg0.win 0).blk t).view.emb (ix2 p k))
        (fun k => ((cfg0.win 1).blk t).view.emb (ix2 k q))
      = Cert.Gcn.matProd (n := 50000) (K := 256) (M := 64) (V c main_arg0) (V c main_arg3) (((cfg0.win 2).blk t).view.emb (ix2 p q))
  have h0 : ∀ k : Fin 256, ((cfg0.win 0).blk t).view.emb (ix2 p k) = ix2 ((((cfg0.win 2).blk t).view.emb (ix2 p q)) 0) k := fun k => by
    funext a; apply Fin.ext
    match a with
    | ⟨0, _⟩ => show win0_0.index t (0 : Fin 2) * 2000 + 1 * p.val = win0_2.index t (0 : Fin 2) * 2000 + 1 * p.val; omega
    | ⟨1, _⟩ => show win0_0.index t (1 : Fin 2) * 256 + 1 * k.val = k.val; omega
  have h1 : ∀ k : Fin 256, ((cfg0.win 1).blk t).view.emb (ix2 k q) = ix2 k ((((cfg0.win 2).blk t).view.emb (ix2 p q)) 1) := fun k => by
    funext a; apply Fin.ext
    match a with
    | ⟨0, _⟩ => show win0_1.index t (0 : Fin 2) * 256 + 1 * k.val = k.val; omega
    | ⟨1, _⟩ => show win0_1.index t (1 : Fin 2) * 64 + 1 * q.val = win0_2.index t (1 : Fin 2) * 64 + 1 * q.val; omega
  rw [Cert.Gcn.matProd_apply]
  exact Cert.Gcn.pairSum_congr _ _ h0 h1

/-- An index of the output array is in point t's block iff each coordinate is in the block's range on its axis. -/
theorem in_block0 (t : Fin cfg0.N) (i : S50000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v33).slice (win0_2.rect t)).set ↔ _
  rw [View.set_slice_whole, Rect.mem_set_unit]
  exact Iff.rfl

/-- Every row of the output is in the block of the point its number divided by 2000 names. -/
theorem tiled0 (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  have hN : grid0.N = 25 := N_0
  have hlt : (i 0).val / 2000 < grid0.N := by rw [hN]; omega
  obtain ⟨e0, e1, e2, e3, e4, e5⟩ := block_places0 ⟨(i 0).val / 2000, hlt⟩
  have e4' : win0_2.index ⟨(i 0).val / 2000, hlt⟩ (0 : Fin 2) = (i 0).val / 2000 := e4
  refine ⟨⟨(i 0).val / 2000, hlt⟩, flush0_2 _, ?_⟩
  rw [in_block0]
  intro a
  match a with
  | ⟨0, _⟩ => show win0_2.index ⟨(i 0).val / 2000, hlt⟩ (0 : Fin 2) * 2000 ≤ (i 0).val ∧ (i 0).val < win0_2.index ⟨(i 0).val / 2000, hlt⟩ (0 : Fin 2) * 2000 + 2000; omega
  | ⟨1, _⟩ => show win0_2.index ⟨(i 0).val / 2000, hlt⟩ (1 : Fin 2) * 64 ≤ (i 1).val ∧ (i 1).val < win0_2.index ⟨(i 0).val / 2000, hlt⟩ (1 : Fin 2) * 64 + 64; omega

/-- After the region the output array holds the whole product of the two input arrays as the region found them. -/
theorem product0 (c : Dev nD) :
    (dat0 V c).arrAt 2 cfg0.N = Cert.Gcn.matProd (n := 50000) (K := 256) (M := 64) (V c main_arg0) (V c main_arg3) :=
  (dat0 V c).arrAt_eq_of_cover 2 _ (fun t _ => written0_eq V c t) (tiled0)

end

end Cert.KernelIdeal.Whole

end
-- ==== Proof.Region1.lean ====
/-
  The second dense product: the rectified first layer, 50000 × 64, against the second weight matrix, 64 × 40.

  The product is computed 2000 rows at a time: grid point t reads rows 2000·t … 2000·t + 1999 of the left matrix and the
  whole right matrix, rounds both to a shorter float format (the identity on the extended reals), multiplies them into a
  zero accumulator, and writes the 2000 × 40 block back as rows 2000·t … of the output. Entry (p, c) of a block is
  ∑ₖ left(2000·t + p, k) · right(k, c), which is entry (2000·t + p, c) of the whole product; the 25 blocks tile the
  50000 rows, so the output array ends holding the whole product of the two arrays as the region found them.
-/
import proofs.«110912_j57105885167693_1_alg».proof.Proof.Gen.KernelIdeal.Frame
import proofs.«110912_j57105885167693_1_alg».proof.Proof.Spec
import proofs.«110912_j57105885167693_1_alg».proof.Proof.LibPlainDot
import Idealize.ShloMosaic.Lib.Pipeline.Value
import Idealize.ShloMosaic.Lib.ValueIdx

set_option maxRecDepth 16384

noncomputable section

open scoped BigOperators

namespace Cert.KernelIdeal.Whole

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- The offsets of a whole-block access are all zero. -/
theorem zero_offsets1 : (![0, 0] : Fin 2 → Nat) = fun _ => 0 := funext fun a => by fin_cases a <;> rfl

/-! ## The contraction's coordinates: output entry (i₀, i₁) at contracted position q reads (i₀, q) and (q, i₁) -/

theorem lhs1_0 (i : S2000x40.Idx) (q : dot_S2000x64_S64x40_S2000x40_1_0_0_1_n_n.contr.Idx) :
    (dot_S2000x64_S64x40_S2000x40_1_0_0_1_n_n.lhsIdx i q 0).val = (i 0).val := by
  unfold DotDims.lhsIdx
  rw [dif_neg (show ¬(0 : Fin S2000x64.rank) ∈ dot_S2000x64_S64x40_S2000x40_1_0_0_1_n_n.lhsBatch by decide), dif_pos (show (0 : Fin S2000x64.rank) ∈ dot_S2000x64_S64x40_S2000x40_1_0_0_1_n_n.lhsNonContracting by decide)]
  rfl
theorem lhs1_1 (i : S2000x40.Idx) (q : dot_S2000x64_S64x40_S2000x40_1_0_0_1_n_n.contr.Idx) :
    (dot_S2000x64_S64x40_S2000x40_1_0_0_1_n_n.lhsIdx i q 1).val = (q ⟨0, by decide⟩).val :=
  dot_S2000x64_S64x40_S2000x40_1_0_0_1_n_n.lhsIdx_val_of_single rfl i q
theorem rhs1_0 (i : S2000x40.Idx) (q : dot_S2000x64_S64x40_S2000x40_1_0_0_1_n_n.contr.Idx) :
    (dot_S2000x64_S64x40_S2000x40_1_0_0_1_n_n.rhsIdx i q 0).val = (q ⟨0, by decide⟩).val :=
  dot_S2000x64_S64x40_S2000x40_1_0_0_1_n_n.rhsIdx_val_of_single rfl i q
theorem rhs1_1 (i : S2000x40.Idx) (q : dot_S2000x64_S64x40_S2000x40_1_0_0_1_n_n.contr.Idx) :
    (dot_S2000x64_S64x40_S2000x40_1_0_0_1_n_n.rhsIdx i q 1).val = (i 1).val := by
  unfold DotDims.rhsIdx
  rw [dif_neg (show ¬(1 : Fin S64x40.rank) ∈ dot_S2000x64_S64x40_S2000x40_1_0_0_1_n_n.rhsBatch by decide), dif_pos (show (1 : Fin S64x40.rank) ∈ dot_S2000x64_S64x40_S2000x40_1_0_0_1_n_n.rhsNonContracting by decide)]
  rfl

/-- What the body stores at (p, q) of its block: the row p of the left block against column q of the right one. -/
theorem block_entry1 (x0 : Vec Ideal S2000x64 .f32) (x1 : Vec Ideal S64x40 .f32) (p : Fin 2000) (q : Fin 40) :
    k1_pay1 (F := Ideal) x0 x1 (ix2 p q) = ∑ k : Fin 64, x0 (ix2 p k) * x1 (ix2 k q) := by
  unfold k1_pay1
  rw [shapeCast_self]
  exact Cert.PlainDot.matmul_zero_apply dot_S2000x64_S64x40_S2000x40_1_0_0_1_n_n rfl rfl lhs1_0 lhs1_1 rhs1_0 rhs1_1 none _ _ p q

/-- Where the three windows' blocks sit at point t: the left and the output blocks at block row t, the right matrix whole. -/
theorem block_places1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

section
variable (V : (c : Dev nD) → (b : Ref sig .tc) → Buf (Elt Ideal) ((c : Thread nD τ).loc b))

/-- What point t writes back is block t of the whole product of the arrays as the region finds them. -/
theorem written1_eq (c : Dev nD) (t : Fin cfg1.N) :
    (dat1 V c).flushed 2 t = ((cfg1.win 2).blk t).view.read (Elt Ideal)
      (Cert.Gcn.matProd (n := 50000) (K := 64) (M := 40) (V c main_v50) (V c main_arg5)) := by
  show (cfg1.win 2).cut (grid1.coords t) ((dat1 V c).after 2 t) = _
  rw [after1_2]
  unfold out1_2
  rw [View.canon_unit_zero zero_offsets1]
  simp only [View.ld_unit_zero (S := S2000x64) zero_offsets1, View.ld_unit_zero (S := S64x40) zero_offsets1]
  obtain ⟨e0, e1, e2, e3, e4, e5⟩ := block_places1 t
  funext j
  obtain ⟨p, q, rfl⟩ : ∃ (p : Fin 2000) (q : Fin 40), j = ix2 p q := ⟨j 0, j 1, eq_ix2 j⟩
  refine (block_entry1 (iblk1 V c 0 t) (iblk1 V c 1 t) p q).trans ?_
  show Cert.Gcn.pairSum (K := 64) (V c main_v50) (V c main_arg5) (fun k => ((cfg1.win 0).blk t).view.emb (ix2 p k))
        (fun k => ((cfg1.win 1).blk t).view.emb (ix2 k q))
      = Cert.Gcn.matProd (n := 50000) (K := 64) (M := 40) (V c main_v50) (V c main_arg5) (((cfg1.win 2).blk t).view.emb (ix2 p q))
  have h0 : ∀ k : Fin 64, ((cfg1.win 0).blk t).view.emb (ix2 p k) = ix2 ((((cfg1.win 2).blk t).view.emb (ix2 p q)) 0) k := fun k => by
    funext a; apply Fin.ext
    match a with
    | ⟨0, _⟩ => show win1_0.index t (0 : Fin 2) * 2000 + 1 * p.val = win1_2.index t (0 : Fin 2) * 2000 + 1 * p.val; omega
    | ⟨1, _⟩ => show win1_0.index t (1 : Fin 2) * 64 + 1 * k.val = k.val; omega
  have h1 : ∀ k : Fin 64, ((cfg1.win 1).blk t).view.emb (ix2 k q) = ix2 k ((((cfg1.win 2).blk t).view.emb (ix2 p q)) 1) := fun k => by
    funext a; apply Fin.ext
    match a with
    | ⟨0, _⟩ => show win1_1.index t (0 : Fin 2) * 64 + 1 * k.val = k.val; omega
    | ⟨1, _⟩ => show win1_1.index t (1 : Fin 2) * 40 + 1 * q.val = win1_2.index t (1 : Fin 2) * 40 + 1 * q.val; omega
  rw [Cert.Gcn.matProd_apply]
  exact Cert.Gcn.pairSum_congr _ _ h0 h1

/-- An index of the output array is in point t's block iff each coordinate is in the block's range on its axis. -/
theorem in_block1 (t : Fin cfg1.N) (i : S50000x40.Idx) :
    i ∈ ((cfg1.win 2).blk t).view.set ↔ ∀ a : Fin 2, win1_2.index t a * S2000x40.size a ≤ (i a).val ∧ (i a).val < win1_2.index t a * S2000x40.size a + S2000x40.size a := by
  show i ∈ ((View.whole main_v51).slice (win1_2.rect t)).set ↔ _
  rw [View.set_slice_whole, Rect.mem_set_unit]
  exact Iff.rfl

/-- Every row of the output is in the block of the point its number divided by 2000 names. -/
theorem tiled1 (i : S50000x40.Idx) :
    ∃ t : Fin cfg1.N, (cfg1.win 2).flush t = true ∧ i ∈ ((cfg1.win 2).blk t).view.set := by
  have hi0 : (i 0).val < 50000 := (i 0).isLt
  have hi1 : (i 1).val < 40 := (i 1).isLt
  have hN : grid1.N = 25 := N_1
  have hlt : (i 0).val / 2000 < grid1.N := by rw [hN]; omega
  obtain ⟨e0, e1, e2, e3, e4, e5⟩ := block_places1 ⟨(i 0).val / 2000, hlt⟩
  have e4' : win1_2.index ⟨(i 0).val / 2000, hlt⟩ (0 : Fin 2) = (i 0).val / 2000 := e4
  refine ⟨⟨(i 0).val / 2000, hlt⟩, flush1_2 _, ?_⟩
  rw [in_block1]
  intro a
  match a with
  | ⟨0, _⟩ => show win1_2.index ⟨(i 0).val / 2000, hlt⟩ (0 : Fin 2) * 2000 ≤ (i 0).val ∧ (i 0).val < win1_2.index ⟨(i 0).val / 2000, hlt⟩ (0 : Fin 2) * 2000 + 2000; omega
  | ⟨1, _⟩ => show win1_2.index ⟨(i 0).val / 2000, hlt⟩ (1 : Fin 2) * 40 ≤ (i 1).val ∧ (i 1).val < win1_2.index ⟨(i 0).val / 2000, hlt⟩ (1 : Fin 2) * 40 + 40; omega

/-- After the region the output array holds the whole product of the two input arrays as the region found them. -/
theorem product1 (c : Dev nD) :
    (dat1 V c).arrAt 2 cfg1.N = Cert.Gcn.matProd (n := 50000) (K := 64) (M := 40) (V c main_v50) (V c main_arg5) :=
  (dat1 V c).arrAt_eq_of_cover 2 _ (fun t _ => written1_eq V c t) (tiled1)

end

end Cert.KernelIdeal.Whole

end
-- ==== Proof.Region2.lean ====
/-
  The last region: the log-softmax of every row of the second layer's output, 50000 × 40.

  Grid point t reads rows 2000·t … 2000·t + 1999 of the scores, and for each row takes the largest score, subtracts it,
  exponentiates, sums along the row, takes the logarithm and subtracts it again; it writes the 2000 × 40 block back as the
  same rows of the output. A row's result depends on that row alone, so entry (p, c) of block t is the row formula at row
  2000·t + p of the whole array; the 25 blocks tile the 50000 rows, so the output ends holding the row-wise log-softmax
  of the array as the region found it.
-/
import proofs.«110912_j57105885167693_1_alg».proof.Proof.Gen.KernelIdeal.Frame
import proofs.«110912_j57105885167693_1_alg».proof.Proof.LibLogSoftmax
import Idealize.ShloMosaic.Lib.Pipeline.Value
import Idealize.ShloMosaic.Lib.ValueIdx

set_option maxRecDepth 16384

noncomputable section

open scoped BigOperators

namespace Cert.KernelIdeal.Whole

open Cert.KernelIdeal Cert.KernelIdeal.Gen Cert.LibLogSoftmax
open Idealize.ShloMosaic Idealize.ShloMosaic.TcCoe Idealize.ShloMosaic.ValueIdx
open Idealize.SL Idealize.SL.Sem
open Idealize.ShloMosaic.Pipeline (Dat Cfg Window)

/-- The offsets of a whole-block access are all zero. -/
theorem zero_offsets2 : (![0, 0] : Fin 2 → Nat) = fun _ => 0 := funext fun a => by fin_cases a <;> rfl

/-- What the body stores at (p, c) of its block: the log-softmax of row p of the block it loaded, at column c. -/
theorem block_entry2 (x0 : Vec Ideal S2000x40 .f32) (p : Fin 2000) (c : Fin 40) :
    k2_pay1 (F := Ideal) x0 (ix2 p c) = lsmEntry (fun k : Fin 40 => x0 (ix2 p k)) c := by
  unfold k2_pay1
  rw [shapeCast_self x0]
  exact vector_apply x0 _ _ _ _ _ _ p c

/-- Where the two windows' blocks sit at point t: both at block row t. -/
theorem block_places2 : ∀ t : Fin cfg2.N, win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, _)

section
variable (V : (c : Dev nD) → (b : Ref sig .tc) → Buf (Elt Ideal) ((c : Thread nD τ).loc b))

/-- What point t writes back is block t of the row-wise log-softmax of the array as the region finds it. -/
theorem written2_eq (c : Dev nD) (t : Fin cfg2.N) :
    (dat2 V c).flushed 1 t = ((cfg2.win 1).blk t).view.read (Elt Ideal)
      (logSoftmax (n := 50000) (m := 40) (V c main_v67)) := by
  show (cfg2.win 1).cut (grid2.coords t) ((dat2 V c).after 1 t) = _
  rw [after2_1]
  unfold out2_1
  rw [View.canon_unit_zero zero_offsets2]
  simp only [View.ld_unit_zero (S := S2000x40) zero_offsets2]
  obtain ⟨e0, e1, e2, e3⟩ := block_places2 t
  funext j
  obtain ⟨p, q, rfl⟩ : ∃ (p : Fin 2000) (q : Fin 40), j = ix2 p q := ⟨j 0, j 1, eq_ix2 j⟩
  refine (block_entry2 (iblk2 V c 0 t) p q).trans ?_
  have hq : (((cfg2.win 1).blk t).view.emb (ix2 p q)) 1 = q :=
    Fin.ext (by show win2_1.index t (1 : Fin 2) * 40 + 1 * q.val = q.val; omega)
  have h0 : ∀ k : Fin 40, ((cfg2.win 0).blk t).view.emb (ix2 p k) = ix2 ((((cfg2.win 1).blk t).view.emb (ix2 p q)) 0) k := fun k => by
    funext a; apply Fin.ext
    match a with
    | ⟨0, _⟩ => show win2_0.index t (0 : Fin 2) * 2000 + 1 * p.val = win2_1.index t (0 : Fin 2) * 2000 + 1 * p.val; omega
    | ⟨1, _⟩ => show win2_0.index t (1 : Fin 2) * 40 + 1 * k.val = k.val; omega
  show lsmEntry (m := 40) (fun k : Fin 40 => V c main_v67 (((cfg2.win 0).blk t).view.emb (ix2 p k))) q
      = lsmEntry (m := 40) (fun k : Fin 40 => V c main_v67 (ix2 ((((cfg2.win 1).blk t).view.emb (ix2 p q)) 0) k))
          ((((cfg2.win 1).blk t).view.emb (ix2 p q)) 1)
  exact congrArg₂ (lsmEntry (m := 40)) (funext fun k => congrArg (V c main_v67) (h0 k)) hq.symm

/-- An index of the output array is in point t's block iff each coordinate is in the block's range on its axis. -/
theorem in_block2 (t : Fin cfg2.N) (i : S50000x40.Idx) :
    i ∈ ((cfg2.win 1).blk t).view.set ↔ ∀ a : Fin 2, win2_1.index t a * S2000x40.size a ≤ (i a).val ∧ (i a).val < win2_1.index t a * S2000x40.size a + S2000x40.size a := by
  show i ∈ ((View.whole main_v68).slice (win2_1.rect t)).set ↔ _
  rw [View.set_slice_whole, Rect.mem_set_unit]
  exact Iff.rfl

/-- Every row of the output is in the block of the point its number divided by 2000 names. -/
theorem tiled2 (i : S50000x40.Idx) :
    ∃ t : Fin cfg2.N, (cfg2.win 1).flush t = true ∧ i ∈ ((cfg2.win 1).blk t).view.set := by
  have hi0 : (i 0).val < 50000 := (i 0).isLt
  have hi1 : (i 1).val < 40 := (i 1).isLt
  have hN : grid2.N = 25 := N_2
  have hlt : (i 0).val / 2000 < grid2.N := by rw [hN]; omega
  obtain ⟨e0, e1, e2, e3⟩ := block_places2 ⟨(i 0).val / 2000, hlt⟩
  have e2' : win2_1.index ⟨(i 0).val / 2000, hlt⟩ (0 : Fin 2) = (i 0).val / 2000 := e2
  refine ⟨⟨(i 0).val / 2000, hlt⟩, flush2_1 _, ?_⟩
  rw [in_block2]
  intro a
  match a with
  | ⟨0, _⟩ => show win2_1.index ⟨(i 0).val / 2000, hlt⟩ (0 : Fin 2) * 2000 ≤ (i 0).val ∧ (i 0).val < win2_1.index ⟨(i 0).val / 2000, hlt⟩ (0 : Fin 2) * 2000 + 2000; omega
  | ⟨1, _⟩ => show win2_1.index ⟨(i 0).val / 2000, hlt⟩ (1 : Fin 2) * 40 ≤ (i 1).val ∧ (i 1).val < win2_1.index ⟨(i 0).val / 2000, hlt⟩ (1 : Fin 2) * 40 + 40; omega

/-- After the region the output array holds the row-wise log-softmax of the input array as the region found it. -/
theorem softmax2 (c : Dev nD) :
    (dat2 V c).arrAt 1 cfg2.N = logSoftmax (n := 50000) (m := 40) (V c main_v67) :=
  (dat2 V c).arrAt_eq_of_cover 1 _ (fun t _ => written2_eq V c t) (tiled2)

end

end Cert.KernelIdeal.Whole

end
-- ==== Proof.Fold.lean ====
/-
  What the result buffer holds after the idealized program's nine stretches, as one function of the arguments.

  The buffers' contents are followed boundary by boundary. Before the first product the host computes the edge
  endpoints with their self loops and each edge's coefficient; they are written once and no later stretch touches them,
  so every later stretch finds them as they were. The first region leaves the product of the features with the first
  weight matrix; the stretch after it aggregates that product over the edges, adds the first bias and rectifies; the
  second region multiplies by the second weight matrix; the next stretch aggregates again with the second bias; and
  the last region takes the row-wise log-softmax. Composed: the result is
  logSoftmax (aggregate40 (rectify64 (aggregate64 (x · W1)) · W2)).
-/
import proofs.«110912_j57105885167693_1_alg».proof.Proof.Gen.KernelIdeal.Frame
import proofs.«110912_j57105885167693_1_alg».proof.Proof.Chain
import proofs.«110912_j57105885167693_1_alg».proof.Proof.Stretches
import proofs.«110912_j57105885167693_1_alg».proof.Proof.Spec
import proofs.«110912_j57105885167693_1_alg».proof.Proof.Network
import proofs.«110912_j57105885167693_1_alg».proof.Proof.LibLogSoftmax
import proofs.«110912_j57105885167693_1_alg».proof.Proof.Region0
import proofs.«110912_j57105885167693_1_alg».proof.Proof.Region1
import proofs.«110912_j57105885167693_1_alg».proof.Proof.Region2
import Idealize.ShloMosaic.Lib.StableHlo.Run

set_option maxRecDepth 16384

noncomputable section

namespace Cert.KernelIdeal.Whole

open Cert.KernelIdeal Cert.KernelIdeal.Gen Cert.Gcn Cert.LibLogSoftmax
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg)

/-- After the ninth stretch the result buffer holds the network of the arguments as launched. -/
theorem result_value (c : Dev nD) :
    W9 m ρ c (Proc.devRef .tc main_v68)
      = network (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  obtain ⟨z5, z6, z32, za0, za3, za4, za5, za6⟩ := stretch0 (W0 m ρ c)
  obtain ⟨b50, b5, b6, b32, ba5, ba6⟩ := stretch1 (W4 m ρ c)
  have a67 := stretch2 (W7 m ρ c)
  -- the three regions, each at its entry contents
  have r2 : W9 m ρ c (Proc.devRef .tc main_v68) = logSoftmax (n := 50000) (m := 40) (W8 m ρ c (Proc.devRef .tc main_v67)) :=
    (W9_arr m ρ c 1).trans (softmax2 (V8 m ρ) c)
  have r1 : W7 m ρ c (Proc.devRef .tc main_v51)
      = matProd (n := 50000) (K := 64) (M := 40) (W6 m ρ c (Proc.devRef .tc main_v50)) (W6 m ρ c (Proc.devRef .tc main_arg5)) :=
    (W7_arr m ρ c 2).trans (product1 (V6 m ρ) c)
  have r0 : W4 m ρ c (Proc.devRef .tc main_v33)
      = matProd (n := 50000) (K := 256) (M := 64) (W3 m ρ c (Proc.devRef .tc main_arg0)) (W3 m ρ c (Proc.devRef .tc main_arg3)) :=
    (W4_arr m ρ c 2).trans (product0 (V3 m ρ) c)
  -- the buffers each region leaves alone
  have k7_5 : W7 m ρ c (Proc.devRef .tc main_v5) = W6 m ρ c (Proc.devRef .tc main_v5) := W7_of_ne m ρ c main_v5 (by decide)
  have k7_6 : W7 m ρ c (Proc.devRef .tc main_v6) = W6 m ρ c (Proc.devRef .tc main_v6) := W7_of_ne m ρ c main_v6 (by decide)
  have k7_32 : W7 m ρ c (Proc.devRef .tc main_v32) = W6 m ρ c (Proc.devRef .tc main_v32) := W7_of_ne m ρ c main_v32 (by decide)
  have k7_a6 : W7 m ρ c (Proc.devRef .tc main_arg6) = W6 m ρ c (Proc.devRef .tc main_arg6) := W7_of_ne m ρ c main_arg6 (by decide)
  have k4_5 : W4 m ρ c (Proc.devRef .tc main_v5) = W3 m ρ c (Proc.devRef .tc main_v5) := W4_of_ne m ρ c main_v5 (by decide)
  have k4_6 : W4 m ρ c (Proc.devRef .tc main_v6) = W3 m ρ c (Proc.devRef .tc main_v6) := W4_of_ne m ρ c main_v6 (by decide)
  have k4_32 : W4 m ρ c (Proc.devRef .tc main_v32) = W3 m ρ c (Proc.devRef .tc main_v32) := W4_of_ne m ρ c main_v32 (by decide)
  have k4_a4 : W4 m ρ c (Proc.devRef .tc main_arg4) = W3 m ρ c (Proc.devRef .tc main_arg4) := W4_of_ne m ρ c main_arg4 (by decide)
  have k4_a5 : W4 m ρ c (Proc.devRef .tc main_arg5) = W3 m ρ c (Proc.devRef .tc main_arg5) := W4_of_ne m ρ c main_arg5 (by decide)
  have k4_a6 : W4 m ρ c (Proc.devRef .tc main_arg6) = W3 m ρ c (Proc.devRef .tc main_arg6) := W4_of_ne m ρ c main_arg6 (by decide)
  -- the stretches, named at the boundaries they join
  have a67' : W8 m ρ c (Proc.devRef .tc main_v67) = aggregate40 (W7 m ρ c (Proc.devRef .tc main_v51)) (W7 m ρ c (Proc.devRef .tc main_v5)) (W7 m ρ c (Proc.devRef .tc main_v6))
      (W7 m ρ c (Proc.devRef .tc main_v32)) (W7 m ρ c (Proc.devRef .tc main_arg6)) := a67
  have b50' : W6 m ρ c (Proc.devRef .tc main_v50) = rectify64 (aggregate64 (W4 m ρ c (Proc.devRef .tc main_v33)) (W4 m ρ c (Proc.devRef .tc main_v5)) (W4 m ρ c (Proc.devRef .tc main_v6))
      (W4 m ρ c (Proc.devRef .tc main_v32)) (W4 m ρ c (Proc.devRef .tc main_arg4))) := b50
  have b5' : W6 m ρ c (Proc.devRef .tc main_v5) = W4 m ρ c (Proc.devRef .tc main_v5) := b5
  have b6' : W6 m ρ c (Proc.devRef .tc main_v6) = W4 m ρ c (Proc.devRef .tc main_v6) := b6
  have b32' : W6 m ρ c (Proc.devRef .tc main_v32) = W4 m ρ c (Proc.devRef .tc main_v32) := b32
  have ba5' : W6 m ρ c (Proc.devRef .tc main_arg5) = W4 m ρ c (Proc.devRef .tc main_arg5) := ba5
  have ba6' : W6 m ρ c (Proc.devRef .tc main_arg6) = W4 m ρ c (Proc.devRef .tc main_arg6) := ba6
  have z5' : W3 m ρ c (Proc.devRef .tc main_v5) = srcIdx (m ((c : Thread nD τ).loc main_arg1)) := z5
  have z6' : W3 m ρ c (Proc.devRef .tc main_v6) = dstIdx (m ((c : Thread nD τ).loc main_arg1)) := z6
  have z32' : W3 m ρ c (Proc.devRef .tc main_v32) = coefOf (m ((c : Thread nD τ).loc main_arg1)) (m ((c : Thread nD τ).loc main_arg2)) := z32
  have za0' : W3 m ρ c (Proc.devRef .tc main_arg0) = m ((c : Thread nD τ).loc main_arg0) := za0
  have za3' : W3 m ρ c (Proc.devRef .tc main_arg3) = m ((c : Thread nD τ).loc main_arg3) := za3
  have za4' : W3 m ρ c (Proc.devRef .tc main_arg4) = m ((c : Thread nD τ).loc main_arg4) := za4
  have za5' : W3 m ρ c (Proc.devRef .tc main_arg5) = m ((c : Thread nD τ).loc main_arg5) := za5
  have za6' : W3 m ρ c (Proc.devRef .tc main_arg6) = m ((c : Thread nD τ).loc main_arg6) := za6
  rw [r2, a67', r1, k7_5, k7_6, k7_32, k7_a6, b50', b5', b6', b32', ba5', ba6', r0, k4_5, k4_6, k4_32, k4_a4, k4_a5, k4_a6,
    z5', z6', z32', za0', za3', za4', za5', za6']
  rfl

end Cert.KernelIdeal.Whole

end
-- ==== Proof.RefStretches.lean ====
/-
  The reference's 99 host operations in four stretches, each as a function of the contents it starts from.

  The edge bookkeeping; the host's product x · W1 with the first layer's aggregation, bias and rectifier; the product with
  W2 and the second aggregation; the host's spelling of the row-wise log-softmax. The graph operations are the very ones
  the kernel's program runs between its regions, so they are named by the same functions and never opened.
-/
import proofs.«110912_j57105885167693_1_alg».proof.Proof.RefRunPatched
import proofs.«110912_j57105885167693_1_alg».proof.Proof.Gen.KernelIdeal
import proofs.«110912_j57105885167693_1_alg».proof.Proof.Chain
import Idealize.ShloMosaic.Lib.StableHlo.Run
import Idealize.ShloMosaic.Lib.ValueIdx

set_option maxRecDepth 16384

noncomputable section

open scoped BigOperators

namespace Cert.ReferenceIdeal.Whole

open Cert.ReferenceIdeal Cert.ReferenceIdeal.Gen Cert.ReferenceIdeal.ValueP
open Idealize.ShloMosaic Idealize.ShloMosaic.TcCoe Idealize.ShloMosaic.StableHlo Idealize.ShloMosaic.ValueIdx
open Idealize.SL Idealize.SL.Sem

section Stretches
variable {F : FTy → Type} [FloatOps F]

/-- Two lines run one after the other leave what the second leaves from what the first left. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- Contents carried into a buffer's own type and back are the contents. -/
theorem ofBuf_toBuf {T : BufTy} (x : TRef sig T) (v : T.Contents (Elt F)) : x.ofBuf (x.toBuf v) = v := by
  obtain ⟨r, h, h2, h3⟩ := x
  subst h
  rfl

/-- The result buffer's type is the 50000 × 40 float array's: carrying contents into it changes nothing. -/
theorem toBuf_result (v : (⟨S50000x40, .f32⟩ : BufTy).Contents (Elt F)) :
    (TRef.of (T := ⟨S50000x40, .f32⟩) main_v68).toBuf v = v := rfl

/-- Likewise out of the second layer's output buffer. -/
theorem ofBuf_scores (v : (⟨S50000x40, .f32⟩ : BufTy).Contents (Elt F)) :
    (TRef.of (T := ⟨S50000x40, .f32⟩) main_v67).ofBuf v = v := rfl

/-- The host's spelling of the row-wise log-softmax of a 50000 × 40 array. -/
def hostLogSoftmax (h : Vec F S50000x40 .f32) : Vec F S50000x40 .f32 :=
  subf
    (subf h (broadcastInDim S50000x40 ![0, 1] bcast_S50000x1_S50000x40_0_1 (broadcastInDim S50000x1 ![0] bcast_S50000_S50000x1_0
      (maximumf (broadcastInDim S50000 ![] bcast_S_S50000 (constant (F := F) S_ .f32 0xFF800000#32))
        (Host.reduce FloatOps.maximumf h (constant (F := F) S_ .f32 0xFF800000#32) reducesTo_S50000x40_S50000_d1 h_S_)))))
    (broadcastInDim S50000x40 ![0, 1] bcast_S50000x1_S50000x40_0_1 (Host.log (broadcastInDim S50000x1 ![0] bcast_S50000_S50000x1_0
      (Host.reduceAdd (Host.exp (subf h (broadcastInDim S50000x40 ![0, 1] bcast_S50000x1_S50000x40_0_1 (broadcastInDim S50000x1 ![0] bcast_S50000_S50000x1_0
        (maximumf (broadcastInDim S50000 ![] bcast_S_S50000 (constant (F := F) S_ .f32 0xFF800000#32))
          (Host.reduce FloatOps.maximumf h (constant (F := F) S_ .f32 0xFF800000#32) reducesTo_S50000x40_S50000_d1 h_S_))))))
        (constant (F := F) S_ .f32 0x00000000#32) reducesTo_S50000x40_S50000_d1 h_S_))))

set_option maxHeartbeats 40000000 in
/-- The first stretch, from any contents `W`: the endpoints with self loops and the coefficients, as functions of the
    edge list and the edge weights; the other arguments untouched. -/
theorem stretchA (W : Valuation τ sig (Elt F)) :
    after opsA W (Proc.devRef .tc main_v5) = Cert.Gcn.srcIdx (W (Proc.devRef .tc main_arg1))
    ∧ after opsA W (Proc.devRef .tc main_v6) = Cert.Gcn.dstIdx (W (Proc.devRef .tc main_arg1))
    ∧ after opsA W (Proc.devRef .tc main_v32) = Cert.Gcn.coefOf (W (Proc.devRef .tc main_arg1)) (W (Proc.devRef .tc main_arg2))
    ∧ after opsA W (Proc.devRef .tc main_arg0) = W (Proc.devRef .tc main_arg0)
    ∧ after opsA W (Proc.devRef .tc main_arg3) = W (Proc.devRef .tc main_arg3)
    ∧ after opsA W (Proc.devRef .tc main_arg4) = W (Proc.devRef .tc main_arg4)
    ∧ after opsA W (Proc.devRef .tc main_arg5) = W (Proc.devRef .tc main_arg5)
    ∧ after opsA W (Proc.devRef .tc main_arg6) = W (Proc.devRef .tc main_arg6) := by
  refine ⟨?_, ?_, ?_, ?_, ?_, ?_, ?_, ?_⟩ <;> after_results_simp <;> rfl

set_option maxHeartbeats 40000000 in
/-- The second stretch: the host's product of the features with the first weights, aggregated, biased, rectified. -/
theorem stretchB (W : Valuation τ sig (Elt F)) :
    after opsB W (Proc.devRef .tc main_v50)
      = Cert.Gcn.rectify64 (Cert.Gcn.aggregate64
          (Host.dotGeneral dot_S50000x256_S256x64_S50000x64_1_0_0_1_n_n none (W (Proc.devRef .tc main_arg0)) (W (Proc.devRef .tc main_arg3)))
          (W (Proc.devRef .tc main_v5)) (W (Proc.devRef .tc main_v6)) (W (Proc.devRef .tc main_v32)) (W (Proc.devRef .tc main_arg4)))
    ∧ after opsB W (Proc.devRef .tc main_v5) = W (Proc.devRef .tc main_v5)
    ∧ after opsB W (Proc.devRef .tc main_v6) = W (Proc.devRef .tc main_v6)
    ∧ after opsB W (Proc.devRef .tc main_v32) = W (Proc.devRef .tc main_v32)
    ∧ after opsB W (Proc.devRef .tc main_arg5) = W (Proc.devRef .tc main_arg5)
    ∧ after opsB W (Proc.devRef .tc main_arg6) = W (Proc.devRef .tc main_arg6) := by
  refine ⟨?_, ?_, ?_, ?_, ?_, ?_⟩
  · after_results_simp
    simp only [TRef.toBuf, TRef.ofBuf, cast_eq]
    rfl
  all_goals after_results_simp

set_option maxHeartbeats 40000000 in
/-- The third stretch: the host's product with the second weights, aggregated with the second bias. -/
theorem stretchC (W : Valuation τ sig (Elt F)) :
    after opsC W (Proc.devRef .tc main_v67)
      = Cert.Gcn.aggregate40
          (Host.dotGeneral dot_S50000x64_S64x40_S50000x40_1_0_0_1_n_n none (W (Proc.devRef .tc main_v50)) (W (Proc.devRef .tc main_arg5)))
          (W (Proc.devRef .tc main_v5)) (W (Proc.devRef .tc main_v6)) (W (Proc.devRef .tc main_v32)) (W (Proc.devRef .tc main_arg6)) := by
  after_results_simp
  rfl

set_option maxHeartbeats 40000000 in
/-- The last stretch: the host's log-softmax of the second layer's output. -/
theorem stretchLS (W : Valuation τ sig (Elt F)) :
    after opsLS W (Proc.devRef .tc main_v68) = hostLogSoftmax (W (Proc.devRef .tc main_v67)) := by
  after_results_simp
  simp only [ofBuf_toBuf]
  rw [toBuf_result, ofBuf_scores]
  rfl

end Stretches

end Cert.ReferenceIdeal.Whole

end
-- ==== Proof.RefHost.lean ====
/-
  The host's two products and its log-softmax, entry by entry, over the extended reals.

  The host's dot_general at entry (p, c) is the textbook sum ∑ₖ l(p, k) · r(k, c); the host's log-softmax at (p, c) is the
  row formula (f c − M) − log ∑ₖ exp (f k − M) at row p, its extra maximum against −∞ changing nothing.
-/
import proofs.«110912_j57105885167693_1_alg».proof.Proof.RefStretches
import proofs.«110912_j57105885167693_1_alg».proof.Proof.Spec
import proofs.«110912_j57105885167693_1_alg».proof.Proof.LibLogSoftmax
import proofs.«110912_j57105885167693_1_alg».proof.Proof.LibPlainDot
import Idealize.ShloMosaic.Lib.ValueIdx

set_option maxRecDepth 16384

noncomputable section

open scoped BigOperators

namespace Cert.ReferenceIdeal.Whole

open Cert.ReferenceIdeal Cert.ReferenceIdeal.Gen Cert.ReferenceIdeal.ValueP
open Idealize.ShloMosaic Idealize.ShloMosaic.TcCoe Idealize.ShloMosaic.StableHlo Idealize.ShloMosaic.ValueIdx
open Idealize.SL Idealize.SL.Sem

/-! ## The host's two products and its log-softmax, entry by entry -/

theorem lhsA_0 (i : S50000x64.Idx) (q : dot_S50000x256_S256x64_S50000x64_1_0_0_1_n_n.contr.Idx) :
    (dot_S50000x256_S256x64_S50000x64_1_0_0_1_n_n.lhsIdx i q 0).val = (i 0).val := by
  unfold DotDims.lhsIdx
  rw [dif_neg (show ¬(0 : Fin S50000x256.rank) ∈ dot_S50000x256_S256x64_S50000x64_1_0_0_1_n_n.lhsBatch by decide), dif_pos (show (0 : Fin S50000x256.rank) ∈ dot_S50000x256_S256x64_S50000x64_1_0_0_1_n_n.lhsNonContracting by decide)]
  rfl
theorem lhsA_1 (i : S50000x64.Idx) (q : dot_S50000x256_S256x64_S50000x64_1_0_0_1_n_n.contr.Idx) :
    (dot_S50000x256_S256x64_S50000x64_1_0_0_1_n_n.lhsIdx i q 1).val = (q ⟨0, by decide⟩).val :=
  dot_S50000x256_S256x64_S50000x64_1_0_0_1_n_n.lhsIdx_val_of_single rfl i q
theorem rhsA_0 (i : S50000x64.Idx) (q : dot_S50000x256_S256x64_S50000x64_1_0_0_1_n_n.contr.Idx) :
    (dot_S50000x256_S256x64_S50000x64_1_0_0_1_n_n.rhsIdx i q 0).val = (q ⟨0, by decide⟩).val :=
  dot_S50000x256_S256x64_S50000x64_1_0_0_1_n_n.rhsIdx_val_of_single rfl i q
theorem rhsA_1 (i : S50000x64.Idx) (q : dot_S50000x256_S256x64_S50000x64_1_0_0_1_n_n.contr.Idx) :
    (dot_S50000x256_S256x64_S50000x64_1_0_0_1_n_n.rhsIdx i q 1).val = (i 1).val := by
  unfold DotDims.rhsIdx
  rw [dif_neg (show ¬(1 : Fin S256x64.rank) ∈ dot_S50000x256_S256x64_S50000x64_1_0_0_1_n_n.rhsBatch by decide), dif_pos (show (1 : Fin S256x64.rank) ∈ dot_S50000x256_S256x64_S50000x64_1_0_0_1_n_n.rhsNonContracting by decide)]
  rfl
theorem lhsB_0 (i : S50000x40.Idx) (q : dot_S50000x64_S64x40_S50000x40_1_0_0_1_n_n.contr.Idx) :
    (dot_S50000x64_S64x40_S50000x40_1_0_0_1_n_n.lhsIdx i q 0).val = (i 0).val := by
  unfold DotDims.lhsIdx
  rw [dif_neg (show ¬(0 : Fin S50000x64.rank) ∈ dot_S50000x64_S64x40_S50000x40_1_0_0_1_n_n.lhsBatch by decide), dif_pos (show (0 : Fin S50000x64.rank) ∈ dot_S50000x64_S64x40_S50000x40_1_0_0_1_n_n.lhsNonContracting by decide)]
  rfl
theorem lhsB_1 (i : S50000x40.Idx) (q : dot_S50000x64_S64x40_S50000x40_1_0_0_1_n_n.contr.Idx) :
    (dot_S50000x64_S64x40_S50000x40_1_0_0_1_n_n.lhsIdx i q 1).val = (q ⟨0, by decide⟩).val :=
  dot_S50000x64_S64x40_S50000x40_1_0_0_1_n_n.lhsIdx_val_of_single rfl i q
theorem rhsB_0 (i : S50000x40.Idx) (q : dot_S50000x64_S64x40_S50000x40_1_0_0_1_n_n.contr.Idx) :
    (dot_S50000x64_S64x40_S50000x40_1_0_0_1_n_n.rhsIdx i q 0).val = (q ⟨0, by decide⟩).val :=
  dot_S50000x64_S64x40_S50000x40_1_0_0_1_n_n.rhsIdx_val_of_single rfl i q
theorem rhsB_1 (i : S50000x40.Idx) (q : dot_S50000x64_S64x40_S50000x40_1_0_0_1_n_n.contr.Idx) :
    (dot_S50000x64_S64x40_S50000x40_1_0_0_1_n_n.rhsIdx i q 1).val = (i 1).val := by
  unfold DotDims.rhsIdx
  rw [dif_neg (show ¬(1 : Fin S64x40.rank) ∈ dot_S50000x64_S64x40_S50000x40_1_0_0_1_n_n.rhsBatch by decide), dif_pos (show (1 : Fin S64x40.rank) ∈ dot_S50000x64_S64x40_S50000x40_1_0_0_1_n_n.rhsNonContracting by decide)]
  rfl

/-- The host's first product is the textbook one. -/
theorem dotA_eq (x : FVec Ideal S50000x256 .f32) (w : FVec Ideal S256x64 .f32) :
    Host.dotGeneral (F := Ideal) dot_S50000x256_S256x64_S50000x64_1_0_0_1_n_n none x w
      = Cert.Gcn.matProd (n := 50000) (K := 256) (M := 64) x w := by
  funext i
  obtain ⟨p, q, rfl⟩ : ∃ (p : Fin 50000) (q : Fin 64), i = ix2 p q := ⟨i 0, i 1, eq_ix2 i⟩
  exact Cert.PlainDot.dotGeneral_apply dot_S50000x256_S256x64_S50000x64_1_0_0_1_n_n rfl rfl lhsA_0 lhsA_1 rhsA_0 rhsA_1 none _ x w p q

/-- The host's second product is the textbook one. -/
theorem dotB_eq (x : FVec Ideal S50000x64 .f32) (w : FVec Ideal S64x40 .f32) :
    Host.dotGeneral (F := Ideal) dot_S50000x64_S64x40_S50000x40_1_0_0_1_n_n none x w
      = Cert.Gcn.matProd (n := 50000) (K := 64) (M := 40) x w := by
  funext i
  obtain ⟨p, q, rfl⟩ : ∃ (p : Fin 50000) (q : Fin 40), i = ix2 p q := ⟨i 0, i 1, eq_ix2 i⟩
  exact Cert.PlainDot.dotGeneral_apply dot_S50000x64_S64x40_S50000x40_1_0_0_1_n_n rfl rfl lhsB_0 lhsB_1 rhsB_0 rhsB_1 none _ x w p q

/-- The host's log-softmax is the row formula at every entry. -/
theorem hostLogSoftmax_eq (h : FVec Ideal S50000x40 .f32) :
    hostLogSoftmax (F := Ideal) h = Cert.LibLogSoftmax.logSoftmax (n := 50000) (m := 40) h := by
  funext i
  obtain ⟨p, q, rfl⟩ : ∃ (p : Fin 50000) (q : Fin 40), i = ix2 p q := ⟨i 0, i 1, eq_ix2 i⟩
  unfold hostLogSoftmax
  exact Cert.LibLogSoftmax.host_apply h reducesTo_S50000x40_S50000_d1 (by decide) h_S_ bcast_S_S50000 bcast_S50000_S50000x1_0
    bcast_S50000x1_S50000x40_0_1 p q

end Cert.ReferenceIdeal.Whole

end
-- ==== Proof.RefValue.lean ====
/-
  What the reference program's result buffer holds: the network of the arguments.

  The four stretches are joined at their boundaries; the host's products and log-softmax are read as the textbook product
  and the row formula; the graph operations are the same functions as on the kernel's side.
-/
import proofs.«110912_j57105885167693_1_alg».proof.Proof.RefStretches
import proofs.«110912_j57105885167693_1_alg».proof.Proof.RefHost
import proofs.«110912_j57105885167693_1_alg».proof.Proof.Network

set_option maxRecDepth 16384

noncomputable section

open scoped BigOperators

namespace Cert.ReferenceIdeal.Whole

open Cert.ReferenceIdeal Cert.ReferenceIdeal.Gen Cert.ReferenceIdeal.ValueP
open Idealize.ShloMosaic Idealize.ShloMosaic.TcCoe Idealize.ShloMosaic.StableHlo Idealize.ShloMosaic.ValueIdx
open Idealize.SL Idealize.SL.Sem

/-! ## The result -/

variable (m : (ℓ : Loc nD τ sig) → Buf (Elt Ideal) ℓ)

/-- After its 99 operations the reference's result buffer holds the network of the arguments as launched. -/
theorem result_value (c : Dev nD) :
    after ops (launchContents m c) (Proc.devRef .tc main_v68)
      = Cert.Gcn.network (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) := by
  rw [ops_split]
  simp only [after_append]
  obtain ⟨a5, a6, a32, aa0, aa3, aa4, aa5, aa6⟩ := stretchA (launchContents m c)
  obtain ⟨b50, b5, b6, b32, ba5, ba6⟩ := stretchB (after opsA (launchContents m c))
  have c67 := stretchC (after opsB (after opsA (launchContents m c)))
  have l68 := stretchLS (after opsC (after opsB (after opsA (launchContents m c))))
  rw [l68, c67, b50, b5, b6, b32, ba5, ba6, a5, a6, a32, aa0, aa3, aa4, aa5, aa6, hostLogSoftmax_eq, dotA_eq, dotB_eq]
  rfl

set_option maxHeartbeats 40000000 in
/-- No operation writes an argument: each ends as launched. -/
theorem kept (c : Dev nD) :
    after ops (launchContents m c) (Proc.devRef .tc main_arg0) = m ((c.tc : Thread nD τ).loc main_arg0)
    ∧ after ops (launchContents m c) (Proc.devRef .tc main_arg1) = m ((c.tc : Thread nD τ).loc main_arg1)
    ∧ after ops (launchContents m c) (Proc.devRef .tc main_arg2) = m ((c.tc : Thread nD τ).loc main_arg2)
    ∧ after ops (launchContents m c) (Proc.devRef .tc main_arg3) = m ((c.tc : Thread nD τ).loc main_arg3)
    ∧ after ops (launchContents m c) (Proc.devRef .tc main_arg4) = m ((c.tc : Thread nD τ).loc main_arg4)
    ∧ after ops (launchContents m c) (Proc.devRef .tc main_arg5) = m ((c.tc : Thread nD τ).loc main_arg5)
    ∧ after ops (launchContents m c) (Proc.devRef .tc main_arg6) = m ((c.tc : Thread nD τ).loc main_arg6) := by
  refine ⟨?_, ?_, ?_, ?_, ?_, ?_, ?_⟩ <;> after_results_simp <;> rfl

end Cert.ReferenceIdeal.Whole

end
-- ==== Proof.lean ====
/-
  A two-layer graph convolution with a log-softmax, against its jnp reference, over the extended reals.

  The kernel's program computes the two dense products (features · W1, hidden · W2) and the final row-wise log-softmax in
  three pipelined regions, 2000 rows at a time, and everything on the edge list (self loops, degrees, the per-edge
  coefficient, the gather / scale / scatter-add of each layer, the biases, the rectifier) by host operations between
  them. The reference computes the same network as one line of host operations: the same edge operations, the host's
  dot_general for the products, the host's spelling of log-softmax.

  Over the extended reals a format change is the identity, so the regions' products are the textbook products
  ∑ₖ l(p, k) · r(k, c), block by block and hence as whole arrays; the host's dot_general is the same sum. Each row of the
  log-softmax depends on that row alone, and both spellings are (f c − M) − log ∑ₖ exp (f k − M) with M the row's
  largest entry. The edge operations are literally the same on both sides and are never opened. So both programs end
  with `Cert.Gcn.network` of their arguments in the result buffer; no law of arithmetic beyond the reading of the sums
  is needed, and the inputs' finiteness is not used.

  The three frames: the two kernel programs' are generated whole; the reference's is its run with the result dropped.
  The ideal pass rewrote nothing, so the idealization claim is `True`.
-/
import proofs.«110912_j57105885167693_1_alg».proof.Defs
import proofs.«110912_j57105885167693_1_alg».proof.Proof.Gen.Kernel
import proofs.«110912_j57105885167693_1_alg».proof.Proof.Gen.Kernel.Skeleton
import proofs.«110912_j57105885167693_1_alg».proof.Proof.Gen.Kernel.Launch
import proofs.«110912_j57105885167693_1_alg».proof.Proof.Gen.Kernel.Points
import proofs.«110912_j57105885167693_1_alg».proof.Proof.Gen.Kernel.Frame
import proofs.«110912_j57105885167693_1_alg».proof.Proof.Gen.KernelIdeal
import proofs.«110912_j57105885167693_1_alg».proof.Proof.Gen.KernelIdeal.Skeleton
import proofs.«110912_j57105885167693_1_alg».proof.Proof.Gen.KernelIdeal.Launch
import proofs.«110912_j57105885167693_1_alg».proof.Proof.Gen.KernelIdeal.Points
import proofs.«110912_j57105885167693_1_alg».proof.Proof.Gen.KernelIdeal.Frame
import proofs.«110912_j57105885167693_1_alg».proof.Proof.Gen.ReferenceIdeal
import proofs.«110912_j57105885167693_1_alg».proof.Proof.Gen.Pre_finite_inputs
import proofs.«110912_j57105885167693_1_alg».proof.Proof.KRun
import proofs.«110912_j57105885167693_1_alg».proof.Proof.Fold
import proofs.«110912_j57105885167693_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference runs and no operation of its line writes an argument. -/
theorem frame_reference : Cert.frame_ReferenceIdeal := fun m ρ _ =>
  (θ_run Cert.ReferenceIdeal.defs _ _).mono (fun r h c =>
      ⟨(h c Cert.ReferenceIdeal.main_arg0).trans (Cert.ReferenceIdeal.Whole.kept m c).1,
       (h c Cert.ReferenceIdeal.main_arg1).trans (Cert.ReferenceIdeal.Whole.kept m c).2.1,
       (h c Cert.ReferenceIdeal.main_arg2).trans (Cert.ReferenceIdeal.Whole.kept m c).2.2.1,
       (h c Cert.ReferenceIdeal.main_arg3).trans (Cert.ReferenceIdeal.Whole.kept m c).2.2.2.1,
       (h c Cert.ReferenceIdeal.main_arg4).trans (Cert.ReferenceIdeal.Whole.kept m c).2.2.2.2.1,
       (h c Cert.ReferenceIdeal.main_arg5).trans (Cert.ReferenceIdeal.Whole.kept m c).2.2.2.2.2.1,
       (h c Cert.ReferenceIdeal.main_arg6).trans (Cert.ReferenceIdeal.Whole.kept m c).2.2.2.2.2.2⟩)
    (Cert.ReferenceIdeal.ValueP.run_all (F := Ideal) m ρ)

/-- The ideal pass rewrote no operation. -/
theorem preserves : Cert.preserves_Kernel_KernelIdeal := trivial

/-- Both idealized programs end with the network of their arguments in the result buffer; the arguments agree. -/
theorem algebraic : Cert.algebraic_KernelIdeal_ReferenceIdeal := by
  intro m ρ m' ρ' _ hagree
  refine ⟨fun c => Cert.Gcn.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono (fun r h c => ⟨(h c).1.trans (Cert.KernelIdeal.Whole.result_value m ρ c), (h c).2⟩)
      (Cert.KernelIdeal.Whole.run_result (F := Ideal) m ρ)
  · refine (θ_run Cert.ReferenceIdeal.defs _ _).mono (fun r h c => ?_) (Cert.ReferenceIdeal.ValueP.run_all (F := Ideal) m' ρ')
    obtain ⟨k0, k1, k2, k3, k4, k5, k6⟩ := Cert.ReferenceIdeal.Whole.kept m' c
    obtain ⟨g0, g1, g2, g3, g4, g5, g6⟩ := hagree c
    refine ⟨?_, (h c Cert.ReferenceIdeal.main_arg0).trans k0, (h c Cert.ReferenceIdeal.main_arg1).trans k1, (h c Cert.ReferenceIdeal.main_arg2).trans k2,
      (h c Cert.ReferenceIdeal.main_arg3).trans k3, (h c Cert.ReferenceIdeal.main_arg4).trans k4, (h c Cert.ReferenceIdeal.main_arg5).trans k5, (h c Cert.ReferenceIdeal.main_arg6).trans k6⟩
    rw [h c Cert.ReferenceIdeal.main_v68, Cert.ReferenceIdeal.Whole.result_value m' c, g0, g1, g2, g3, g4, g5, g6]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
